-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S12288x64 : Shape := ⟨2, ![12288, 64]⟩
abbrev S64x64 : Shape := ⟨2, ![64, 64]⟩
abbrev S64 : Shape := ⟨1, ![64]⟩
abbrev S196608 : Shape := ⟨1, ![196608]⟩
abbrev S_ : Shape := ⟨0, ![]⟩

class Facts : Prop where
  bcast_S_S12288x64 : S_.BroadcastsInDim S12288x64 (![] : Fin 0 → Fin S12288x64.rank)
  reducesTo_S12288x64_S_d0_1 : S12288x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S12288x64 .f32) (main_arg1 : FVec F S64x64 .f32) (main_arg2 : FVec F S64 .f32) (main_arg3 : IVec S196608 32) (main_arg4 : IVec S196608 32) : IVec S_ 1 :=
  let main_v0 : FVec F S12288x64 .f32 := Host.absf main_arg0
  let main_cst : FVec F S_ .f32 := constant S_ .f32 0x7F800000#32
  let main_v1 : FVec F S12288x64 .f32 := broadcastInDim S12288x64 ![] bcast_S_S12288x64 main_cst
  let main_v2 : IVec S12288x64 1 := cmpf .olt main_v0 main_v1
  let main_c : IVec S_ 1 := constantI S_ 1 1#1
  let main_v3 : IVec S_ 1 := (fun x v => Host.reduce IntOp.andi x v reducesTo_S12288x64_S_d0_1 h_S_) main_v2 main_c
  let main_v4 : FVec F S64x64 .f32 := Host.absf main_arg1
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S12288x64 : Shape := ⟨2, ![12288, 64]⟩
abbrev S64x64 : Shape := ⟨2, ![64, 64]⟩
abbrev S64 : Shape := ⟨1, ![64]⟩
abbrev S196608 : Shape := ⟨1, ![196608]⟩
abbrev S_ : Shape := ⟨0, ![]⟩
abbrev S12288 : Shape := ⟨1, ![12288]⟩
abbrev S196608x1 : Shape := ⟨2, ![196608, 1]⟩
abbrev S12288x1 : Shape := ⟨2, ![12288, 1]⟩
abbrev S196608x64 : Shape := ⟨2, ![196608, 64]⟩
abbrev S1x64 : Shape := ⟨2, ![1, 64]⟩
abbrev S3072x64 : Shape := ⟨2, ![3072, 64]⟩
abbrev S12288x12288 : Shape := ⟨2, ![12288, 12288]⟩
abbrev S2048x64 : Shape := ⟨2, ![2048, 64]⟩
abbrev S2048x2048 : Shape := ⟨2, ![2048, 2048]⟩

abbrev nBuf : Space → Nat
  | .hbm => 49
  | .vmem => 12
  | .smem => 0
  | _ => 0

abbrev bufTy : (tb : Table) → Fin (tcTables nBuf tb) → BufTy
  | .hbm, ⟨0, _⟩ => ⟨S12288x64, .f32⟩
  | .hbm, ⟨1, _⟩ => ⟨S64x64, .f32⟩
  | .hbm, ⟨2, _⟩ => ⟨S64, .f32⟩
  | .hbm, ⟨3, _⟩ => ⟨S196608, .i32⟩
  | .hbm, ⟨4, _⟩ => ⟨S196608, .i32⟩
  | .hbm, ⟨5, _⟩ => ⟨S_, .f32⟩
  | .hbm, ⟨6, _⟩ => ⟨S196608, .f32⟩
  | .hbm, ⟨7, _⟩ => ⟨S_, .f32⟩
  | .hbm, ⟨8, _⟩ => ⟨S12288, .f32⟩
  | .hbm, ⟨9, _⟩ => ⟨S196608x1, .i32⟩
  | .hbm, ⟨10, _⟩ => ⟨S12288, .f32⟩
  | .hbm, ⟨11, _⟩ => ⟨S_, .f32⟩
  | .hbm, ⟨12, _⟩ => ⟨S12288, .f32⟩
  | .hbm, ⟨13, _⟩ => ⟨S196608x1, .i32⟩
  | .hbm, ⟨14, _⟩ => ⟨S12288, .f32⟩
  | .hbm, ⟨15, _⟩ => ⟨S_, .f32⟩
  | .hbm, ⟨16, _⟩ => ⟨S12288, .f32⟩
  | .hbm, ⟨17, _⟩ => ⟨S12288, .f32⟩
  | .hbm, ⟨18, _⟩ => ⟨S_, .f32⟩
  | .hbm, ⟨19, _⟩ => ⟨S12288, .f32⟩
  | .hbm, ⟨20, _⟩ => ⟨S12288, .f32⟩
  | .hbm, ⟨21, _⟩ => ⟨S_, .f32⟩
  | .hbm, ⟨22, _⟩ => ⟨S12288, .f32⟩
  | .hbm, ⟨23, _⟩ => ⟨S12288, .f32⟩
  | .hbm, ⟨24, _⟩ => ⟨S_, .f32⟩
  | .hbm, ⟨25, _⟩ => ⟨S12288, .f32⟩
  | .hbm, ⟨26, _⟩ => ⟨S12288, .f32⟩
  | .hbm, ⟨27, _⟩ => ⟨S12288x1, .f32⟩
  | .hbm, ⟨28, _⟩ => ⟨S12288x64, .f32⟩
  | .hbm, ⟨29, _⟩ => ⟨S12288x64, .f32⟩
  | .hbm, ⟨30, _⟩ => ⟨S_, .i32⟩
  | .hbm, ⟨31, _⟩ => ⟨S196608, .i32⟩
  | .hbm, ⟨32, _⟩ => ⟨S196608, .i1⟩
  | .hbm, ⟨33, _⟩ => ⟨S_, .i32⟩
  | .hbm, ⟨34, _⟩ => ⟨S196608, .i32⟩
  | .hbm, ⟨35, _⟩ => ⟨S196608, .i32⟩
  | .hbm, ⟨36, _⟩ => ⟨S196608, .i32⟩
  | .hbm, ⟨37, _⟩ => ⟨S196608x1, .i32⟩
  | .hbm, ⟨38, _⟩ => ⟨S196608x64, .f32⟩
  | .hbm, ⟨39, _⟩ => ⟨S_, .f32⟩
  | .hbm, ⟨40, _⟩ => ⟨S12288x64, .f32⟩
  | .hbm, ⟨41, _⟩ => ⟨S196608x1, .i32⟩
  | .hbm, ⟨42, _⟩ => ⟨S12288x64, .f32⟩
  | .hbm, ⟨43, _⟩ => ⟨S12288x1, .f32⟩
  | .hbm, ⟨44, _⟩ => ⟨S12288x64, .f32⟩
  | .hbm, ⟨45, _⟩ => ⟨S12288x64, .f32⟩
  | .hbm, ⟨46, _⟩ => ⟨S1x64, .f32⟩
  | .hbm, ⟨47, _⟩ => ⟨S12288x64, .bf16⟩
  | .hbm, ⟨48, _⟩ => ⟨S12288x12288, .f32⟩
  | .local _ .vmem, ⟨0, _⟩ => ⟨S3072x64, .f32⟩
  | .local _ .vmem, ⟨1, _⟩ => ⟨S3072x64, .f32⟩
  | .local _ .vmem, ⟨2, _⟩ => ⟨S64x64, .f32⟩
  | .local _ .vmem, ⟨3, _⟩ => ⟨S1x64, .f32⟩
  | .local _ .vmem, ⟨4, _⟩ => ⟨S3072x64, .bf16⟩
  | .local _ .vmem, ⟨5, _⟩ => ⟨S3072x64, .bf16⟩
  | .local _ .vmem, ⟨6, _⟩ => ⟨S2048x64, .bf16⟩
  | .local _ .vmem, ⟨7, _⟩ => ⟨S2048x64, .bf16⟩
  | .local _ .vmem, ⟨8, _⟩ => ⟨S2048x64, .bf16⟩
  | .local _ .vmem, ⟨9, _⟩ => ⟨S2048x64, .bf16⟩
  | .local _ .vmem, ⟨10, _⟩ => ⟨S2048x2048, .f32⟩
  | .local _ .vmem, ⟨11, _⟩ => ⟨S2048x2048, .f32⟩
  | _, _ => ⟨S12288x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_cst_3 : Ref sig .tc := ⟨.hbm, 18, rfl⟩
abbrev main_v9 : Ref sig .tc := ⟨.hbm, 19, rfl⟩
abbrev main_v10 : Ref sig .tc := ⟨.hbm, 20, rfl⟩
abbrev main_cst_4 : Ref sig .tc := ⟨.hbm, 21, rfl⟩
abbrev main_v11 : Ref sig .tc := ⟨.hbm, 22, rfl⟩
abbrev main_v12 : Ref sig .tc := ⟨.hbm, 23, rfl⟩
abbrev main_cst_5 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_c : Ref sig .tc := ⟨.hbm, 30, rfl⟩
abbrev main_v18 : Ref sig .tc := ⟨.hbm, 31, rfl⟩
abbrev main_v19 : Ref sig .tc := ⟨.hbm, 32, rfl⟩
abbrev main_c_6 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_7 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S3072x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S3072x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![6, 6], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S2048x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S2048x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S2048x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  bcast_S_S196608 : S_.BroadcastsInDim S196608 (![] : Fin 0 → Fin S196608.rank)
  bcast_S_S12288 : S_.BroadcastsInDim S12288 (![] : Fin 0 → Fin S12288.rank)
  bcast_S196608_S196608x1_0 : S196608.BroadcastsInDim S196608x1 (![0] : Fin 1 → Fin S196608x1.rank)
  bcast_S12288_S12288x1_0 : S12288.BroadcastsInDim S12288x1 (![0] : Fin 1 → Fin S12288x1.rank)
  bcast_S12288x1_S12288x64_0_1 : S12288x1.BroadcastsInDim S12288x64 (![0, 1] : Fin 2 → Fin S12288x64.rank)
  bcast_S_S12288x64 : S_.BroadcastsInDim S12288x64 (![] : Fin 0 → Fin S12288x64.rank)
  shapeCasts_S64_S1x64 : S64.ShapeCasts S1x64
  inb_S3072x64_S3072x64_0_0 : ∀ a, (![0, 0] : Fin 2 → Nat) a + S3072x64.size a ≤ S3072x64.size a
  h_S3072x64 : 0 < S3072x64.numel
  shapeCasts_S3072x64_S3072x64 : S3072x64.ShapeCasts S3072x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S3072x64 : S1x64.Broadcasts S3072x64
  packedbf16_S3072x64_S3072x64_0_0 : (Rect.unit (s := S3072x64) ![0, 0] S3072x64.size inb_S3072x64_S3072x64_0_0).PackedRows (EltTy.packing .bf16)
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  inb_S2048x2048_S2048x2048_0_0 : ∀ a, (![0, 0] : Fin 2 → Nat) a + S2048x2048.size a ≤ S2048x2048.size a
  h_S2048x2048 : 0 < S2048x2048.numel
  scatter_S12288_S196608x1_S196608_n_0_0_1_wf : ScatterDims.WF S12288 S196608x1 S196608 [] [0] [0] 1
  gather_S12288x64_S196608x1_S196608x64_1_0_n_n_0_1_164_wf : GatherDims.WF S12288x64 S196608x1 S196608x64 [1] [0] [] [0] [] 1 ![1, 64]
  scatter_S12288x64_S196608x1_S196608x64_1_0_0_1_wf : ScatterDims.WF S12288x64 S196608x1 S196608x64 [1] [0] [0] 1
  dot_S3072x64_S64x64_S3072x64_1_0_0_1_n_n_wf : DotDims.WF S3072x64 S64x64 S3072x64 [1] [0] [0] [1] [] []
  dot_S2048x64_S2048x64_S2048x2048_1_1_0_0_n_n_wf : DotDims.WF S2048x64 S2048x64 S2048x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3072x64.size a ≤ S12288x64.size a
  hwx0_0 : ∀ i : grid0.Coords, EltTy.bits .f32 = 32 ∨ (Rect.block (s := S12288x64) S3072x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S3072x64.size a ≤ S12288x64.size a
  hwx0_3 : ∀ i : grid0.Coords, EltTy.bits .bf16 = 32 ∨ (Rect.block (s := S12288x64) S3072x64.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x64.size a ≤ S12288x64.size a
  hwx1_0 : ∀ i : grid1.Coords, EltTy.bits .bf16 = 32 ∨ (Rect.block (s := S12288x64) S2048x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x64.size a ≤ S12288x64.size a
  hwx1_1 : ∀ i : grid1.Coords, EltTy.bits .bf16 = 32 ∨ (Rect.block (s := S12288x64) S2048x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x2048.size a ≤ S12288x12288.size a
  hwx1_2 : ∀ i : grid1.Coords, EltTy.bits .f32 = 32 ∨ (Rect.block (s := S12288x12288) S2048x2048.size (cc1_transform_2 i) (hinb1_2 i)).WholeWords (EltTy.packing .f32)

variable [Facts₀]

def scatter_S12288_S196608x1_S196608_n_0_0_1 : ScatterDims S12288 S196608x1 S196608 where
  updateWindowDims := []
  insertedWindowDims := [0]
  scatterDimsToOperandDims := [0]
  indexVectorDim := 1
  wf := scatter_S12288_S196608x1_S196608_n_0_0_1_wf
def gather_S12288x64_S196608x1_S196608x64_1_0_n_n_0_1_164 : GatherDims S12288x64 S196608x1 S196608x64 where
  offsetDims := [1]
  collapsedSliceDims := [0]
  operandBatchingDims := []
  startIndicesBatchingDims := []
  startIndexMap := [0]
  indexVectorDim := 1
  sliceSizes := ![1, 64]
  wf := gather_S12288x64_S196608x1_S196608x64_1_0_n_n_0_1_164_wf
def scatter_S12288x64_S196608x1_S196608x64_1_0_0_1 : ScatterDims S12288x64 S196608x1 S196608x64 where
  updateWindowDims := [1]
  insertedWindowDims := [0]
  scatterDimsToOperandDims := [0]
  indexVectorDim := 1
  wf := scatter_S12288x64_S196608x1_S196608x64_1_0_0_1_wf
def dot_S3072x64_S64x64_S3072x64_1_0_0_1_n_n : DotDims S3072x64 S64x64 S3072x64 where
  lhsContracting := [1]
  rhsContracting := [0]
  lhsNonContracting := [0]
  rhsNonContracting := [1]
  lhsBatch := []
  rhsBatch := []
  wf := dot_S3072x64_S64x64_S3072x64_1_0_0_1_n_n_wf
def dot_S2048x64_S2048x64_S2048x2048_1_1_0_0_n_n : DotDims S2048x64 S2048x64 S2048x2048 where
  lhsContracting := [1]
  rhsContracting := [1]
  lhsNonContracting := [0]
  rhsNonContracting := [0]
  lhsBatch := []
  rhsBatch := []
  wf := dot_S2048x64_S2048x64_S2048x2048_1_1_0_0_n_n_wf

abbrev win0_0 : Pipeline.Window sig grid0 :=
  Pipeline.Window.ofSpec (Memref.whole main_v30) S3072x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v32) S3072x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v32) S2048x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v32) S2048x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v33) S2048x2048.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S12288x64 : Shape := ⟨2, ![12288, 64]⟩
abbrev S64x64 : Shape := ⟨2, ![64, 64]⟩
abbrev S64 : Shape := ⟨1, ![64]⟩
abbrev S196608 : Shape := ⟨1, ![196608]⟩
abbrev S_ : Shape := ⟨0, ![]⟩
abbrev S12288 : Shape := ⟨1, ![12288]⟩
abbrev S196608x1 : Shape := ⟨2, ![196608, 1]⟩
abbrev S12288x1 : Shape := ⟨2, ![12288, 1]⟩
abbrev S196608x64 : Shape := ⟨2, ![196608, 64]⟩
abbrev S1x64 : Shape := ⟨2, ![1, 64]⟩
abbrev S64x12288 : Shape := ⟨2, ![64, 12288]⟩
abbrev S12288x12288 : Shape := ⟨2, ![12288, 12288]⟩

abbrev nBuf : Space → Nat
  | .hbm => 55
  | .vmem => 0
  | .smem => 0
  | _ => 0

abbrev bufTy : (tb : Table) → Fin (tcTables nBuf tb) → BufTy
  | .hbm, ⟨0, _⟩ => ⟨S12288x64, .f32⟩
  | .hbm, ⟨1, _⟩ => ⟨S64x64, .f32⟩
  | .hbm, ⟨2, _⟩ => ⟨S64, .f32⟩
  | .hbm, ⟨3, _⟩ => ⟨S196608, .i32⟩
  | .hbm, ⟨4, _⟩ => ⟨S196608, .i32⟩
  | .hbm, ⟨5, _⟩ => ⟨S_, .f32⟩
  | .hbm, ⟨6, _⟩ => ⟨S196608, .f32⟩
  | .hbm, ⟨7, _⟩ => ⟨S_, .f32⟩
  | .hbm, ⟨8, _⟩ => ⟨S12288, .f32⟩
  | .hbm, ⟨9, _⟩ => ⟨S196608x1, .i32⟩
  | .hbm, ⟨10, _⟩ => ⟨S12288, .f32⟩
  | .hbm, ⟨11, _⟩ => ⟨S_, .f32⟩
  | .hbm, ⟨12, _⟩ => ⟨S12288, .f32⟩
  | .hbm, ⟨13, _⟩ => ⟨S196608x1, .i32⟩
  | .hbm, ⟨14, _⟩ => ⟨S12288, .f32⟩
  | .hbm, ⟨15, _⟩ => ⟨S_, .f32⟩
  | .hbm, ⟨16, _⟩ => ⟨S12288, .f32⟩
  | .hbm, ⟨17, _⟩ => ⟨S12288, .f32⟩
  | .hbm, ⟨18, _⟩ => ⟨S_, .f32⟩
  | .hbm, ⟨19, _⟩ => ⟨S12288, .f32⟩
  | .hbm, ⟨20, _⟩ => ⟨S12288, .f32⟩
  | .hbm, ⟨21, _⟩ => ⟨S_, .f32⟩
  | .hbm, ⟨22, _⟩ => ⟨S12288, .f32⟩
  | .hbm, ⟨23, _⟩ => ⟨S12288, .f32⟩
  | .hbm, ⟨24, _⟩ => ⟨S_, .f32⟩
  | .hbm, ⟨25, _⟩ => ⟨S12288, .f32⟩
  | .hbm, ⟨26, _⟩ => ⟨S12288, .f32⟩
  | .hbm, ⟨27, _⟩ => ⟨S12288x1, .f32⟩
  | .hbm, ⟨28, _⟩ => ⟨S12288x64, .f32⟩
  | .hbm, ⟨29, _⟩ => ⟨S12288x64, .f32⟩
  | .hbm, ⟨30, _⟩ => ⟨S_, .i32⟩
  | .hbm, ⟨31, _⟩ => ⟨S196608, .i32⟩
  | .hbm, ⟨32, _⟩ => ⟨S196608, .i1⟩
  | .hbm, ⟨33, _⟩ => ⟨S_, .i32⟩
  | .hbm, ⟨34, _⟩ => ⟨S196608, .i32⟩
  | .hbm, ⟨35, _⟩ => ⟨S196608, .i32⟩
  | .hbm, ⟨36, _⟩ => ⟨S196608, .i32⟩
  | .hbm, ⟨37, _⟩ => ⟨S196608x1, .i32⟩
  | .hbm, ⟨38, _⟩ => ⟨S196608x64, .f32⟩
  | .hbm, ⟨39, _⟩ => ⟨S_, .f32⟩
  | .hbm, ⟨40, _⟩ => ⟨S12288x64, .f32⟩
  | .hbm, ⟨41, _⟩ => ⟨S196608x1, .i32⟩
  | .hbm, ⟨42, _⟩ => ⟨S12288x64, .f32⟩
  | .hbm, ⟨43, _⟩ => ⟨S12288x1, .f32⟩
  | .hbm, ⟨44, _⟩ => ⟨S12288x64, .f32⟩
  | .hbm, ⟨45, _⟩ => ⟨S12288x64, .f32⟩
  | .hbm, ⟨46, _⟩ => ⟨S12288x64, .f32⟩
  | .hbm, ⟨47, _⟩ => ⟨S1x64, .f32⟩
  | .hbm, ⟨48, _⟩ => ⟨S12288x64, .f32⟩
  | .hbm, ⟨49, _⟩ => ⟨S12288x64, .f32⟩
  | .hbm, ⟨50, _⟩ => ⟨S_, .f32⟩
  | .hbm, ⟨51, _⟩ => ⟨S12288x64, .f32⟩
  | .hbm, ⟨52, _⟩ => ⟨S12288x64, .f32⟩
  | .hbm, ⟨53, _⟩ => ⟨S64x12288, .f32⟩
  | .hbm, ⟨54, _⟩ => ⟨S12288x12288, .f32⟩
  | _, _ => ⟨S12288x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_cst_3 : Ref sig .tc := ⟨.hbm, 18, rfl⟩
abbrev main_v9 : Ref sig .tc := ⟨.hbm, 19, rfl⟩
abbrev main_v10 : Ref sig .tc := ⟨.hbm, 20, rfl⟩
abbrev main_cst_4 : Ref sig .tc := ⟨.hbm, 21, rfl⟩
abbrev main_v11 : Ref sig .tc := ⟨.hbm, 22, rfl⟩
abbrev main_v12 : Ref sig .tc := ⟨.hbm, 23, rfl⟩
abbrev main_cst_5 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_c : Ref sig .tc := ⟨.hbm, 30, rfl⟩
abbrev main_v18 : Ref sig .tc := ⟨.hbm, 31, rfl⟩
abbrev main_v19 : Ref sig .tc := ⟨.hbm, 32, rfl⟩
abbrev main_c_6 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_7 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_call0_cst : Ref sig .tc := ⟨.hbm, 50, rfl⟩
abbrev main_call0_v0 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩

abbrev nD : Nat := 1
abbrev τ : Topo := Topo.v7x

variable {F : FTy → Type} [FloatOps F]

class Facts₀ : Prop where
  bcast_S_S196608 : S_.BroadcastsInDim S196608 (![] : Fin 0 → Fin S196608.rank)
  bcast_S_S12288 : S_.BroadcastsInDim S12288 (![] : Fin 0 → Fin S12288.rank)
  bcast_S196608_S196608x1_0 : S196608.BroadcastsInDim S196608x1 (![0] : Fin 1 → Fin S196608x1.rank)
  bcast_S12288_S12288x1_0 : S12288.BroadcastsInDim S12288x1 (![0] : Fin 1 → Fin S12288x1.rank)
  bcast_S12288x1_S12288x64_0_1 : S12288x1.BroadcastsInDim S12288x64 (![0, 1] : Fin 2 → Fin S12288x64.rank)
  bcast_S_S12288x64 : S_.BroadcastsInDim S12288x64 (![] : Fin 0 → Fin S12288x64.rank)
  bcast_S64_S1x64_1 : S64.BroadcastsInDim S1x64 (![1] : Fin 1 → Fin S1x64.rank)
  bcast_S1x64_S12288x64_0_1 : S1x64.BroadcastsInDim S12288x64 (![0, 1] : Fin 2 → Fin S12288x64.rank)
  transposes_S12288x64_S64x12288_1_0 : S12288x64.Transposes [1, 0] S64x12288
  scatter_S12288_S196608x1_S196608_n_0_0_1_wf : ScatterDims.WF S12288 S196608x1 S196608 [] [0] [0] 1
  gather_S12288x64_S196608x1_S196608x64_1_0_n_n_0_1_164_wf : GatherDims.WF S12288x64 S196608x1 S196608x64 [1] [0] [] [0] [] 1 ![1, 64]
  scatter_S12288x64_S196608x1_S196608x64_1_0_0_1_wf : ScatterDims.WF S12288x64 S196608x1 S196608x64 [1] [0] [0] 1
  dot_S12288x64_S64x64_S12288x64_1_0_0_1_n_n_wf : DotDims.WF S12288x64 S64x64 S12288x64 [1] [0] [0] [1] [] []
  dot_S12288x64_S64x12288_S12288x12288_1_0_0_1_n_n_wf : DotDims.WF S12288x64 S64x12288 S12288x12288 [1] [0] [0] [1] [] []

variable [Facts₀]

def scatter_S12288_S196608x1_S196608_n_0_0_1 : ScatterDims S12288 S196608x1 S196608 where
  updateWindowDims := []
  insertedWindowDims := [0]
  scatterDimsToOperandDims := [0]
  indexVectorDim := 1
  wf := scatter_S12288_S196608x1_S196608_n_0_0_1_wf
def gather_S12288x64_S196608x1_S196608x64_1_0_n_n_0_1_164 : GatherDims S12288x64 S196608x1 S196608x64 where
  offsetDims := [1]
  collapsedSliceDims := [0]
  operandBatchingDims := []
  startIndicesBatchingDims := []
  startIndexMap := [0]
  indexVectorDim := 1
  sliceSizes := ![1, 64]
  wf := gather_S12288x64_S196608x1_S196608x64_1_0_n_n_0_1_164_wf
def scatter_S12288x64_S196608x1_S196608x64_1_0_0_1 : ScatterDims S12288x64 S196608x1 S196608x64 where
  updateWindowDims := [1]
  insertedWindowDims := [0]
  scatterDimsToOperandDims := [0]
  indexVectorDim := 1
  wf := scatter_S12288x64_S196608x1_S196608x64_1_0_0_1_wf
def dot_S12288x64_S64x64_S12288x64_1_0_0_1_n_n : DotDims S12288x64 S64x64 S12288x64 where
  lhsContracting := [1]
  rhsContracting := [0]
  lhsNonContracting := [0]
  rhsNonContracting := [1]
  lhsBatch := []
  rhsBatch := []
  wf := dot_S12288x64_S64x64_S12288x64_1_0_0_1_n_n_wf
def dot_S12288x64_S64x12288_S12288x12288_1_0_0_1_n_n : DotDims S12288x64 S64x12288 S12288x12288 where
  lhsContracting := [1]
  rhsContracting := [0]
  lhsNonContracting := [0]
  rhsNonContracting := [1]
  lhsBatch := []
  rhsBatch := []
  wf := dot_S12288x64_S64x12288_S12288x12288_1_0_0_1_n_n_wf

class Facts : Prop extends Facts₀ where

variable [Facts]
-- ==== Proof.LinBodyBits.lean ====
/-
  The linear layer's kernel (the first pallas_call) at a grid point.

  Its grid has four points; point t works on rows 3072·t … 3072·t + 3071 of the aggregated features.
  The body reads that block of rows, the whole 64×64 weight matrix and the bias row, and stores
  max(rows · W + bias, 0) over its whole output block. Here: the blocks the windows hold at a point,
  the stored block as a function of the three blocks read, the body's triple, and the proof data
  the pipeline's launch rule asks for — stated at any contents V of the core's buffers at the region's entry.
-/
import proofs.«144663_j39032662786657_2_alg».proof.Proof.Gen.Kernel.Launch
import proofs.«144663_j39032662786657_2_alg».proof.Proof.Gen.Kernel.Skeleton
import proofs.«144663_j39032662786657_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Lin

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w`'s array that point `t` works on, read off the entry contents. -/
def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, whether the pipeline fetched it there or kept
    it from the point before (an unfetched window's block index has not moved). -/
theorem before_in0 {c : Dev nD} (dat : Dat τ (Elt F) Unit ℕ (UR sig nD τ) ℕ cfg0 c)
    (hA : dat.A 0 = V c (Pipeline.arrRef spec0 0))
    (hafter : ∀ t, dat.after 0 t = blk V c 0 t) (t : Fin cfg0.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)

/-- Input window 1's staging buffer holds its block at every point, whether the pipeline fetched it there or kept
    it from the point before (an unfetched window's block index has not moved). -/
theorem before_in1 {c : Dev nD} (dat : Dat τ (Elt F) Unit ℕ (UR sig nD τ) ℕ cfg0 c)
    (hA : dat.A 1 = V c (Pipeline.arrRef spec0 1))
    (hafter : ∀ t, dat.after 1 t = blk V c 1 t) (t : Fin cfg0.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)

/-- Input window 2's staging buffer holds its block at every point, whether the pipeline fetched it there or kept
    it from the point before (an unfetched window's block index has not moved). -/
theorem before_in2 {c : Dev nD} (dat : Dat τ (Elt F) Unit ℕ (UR sig nD τ) ℕ cfg0 c)
    (hA : dat.A 2 = V c (Pipeline.arrRef spec0 2))
    (hafter : ∀ t, dat.after 2 t = blk V c 2 t) (t : Fin cfg0.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)

/-- The whole-buffer rectangles the body loads and stores through. -/
abbrev rRows : Rect S3072x64 := Rect.unit (s := S3072x64) ![0, 0] S3072x64.size inb_S3072x64_S3072x64_0_0
abbrev rW : Rect S64x64 := Rect.unit (s := S64x64) ![0, 0] S64x64.size inb_S64x64_S64x64_0_0
abbrev rBias : Rect S1x64 := Rect.unit (s := S1x64) ![0, 0] S1x64.size inb_S1x64_S1x64_0_0

/-- What the body leaves in the output window's buffer: its one store, of the payload of the three blocks read. -/
def stored (x0 : Vec F S3072x64 .f32) (x1 : Vec F S64x64 .f32) (x2 : Vec F S1x64 .f32) : Vec F S3072x64 .bf16 :=
  View.canon [⟨rRows, k0_pay1 (View.ld x0 rRows) (View.ld x1 rW) (View.ld x2 rBias)⟩]

/-- The one store covers the buffer. -/
theorem stored_cover (p0 : Vec F S3072x64 .bf16) (y : S3072x64.Idx) :
    ∃ pc ∈ ([⟨rRows, p0⟩] : List (View.Piece (Elt F) S3072x64 .bf16)), y ∈ pc.1.set :=
  View.cover_of_tiled [⟨rRows, p0⟩] S3072x64.size (by rfl) y

set_option maxHeartbeats 1000000 in
/-- The body on whole staging buffers: the three inputs are left as found, the output buffer ends at `stored`. -/
theorem sound_kernel (c : Dev nD) (E : Set ℕ) (i : grid0.Coords)
    (arg1 : Memref sig .tc .vmem S3072x64 .f32) (harg1 : arg1.IsWhole) (arg2 : Memref sig .tc .vmem S64x64 .f32) (harg2 : arg2.IsWhole)
    (arg3 : Memref sig .tc .vmem S1x64 .f32) (harg3 : arg3.IsWhole) (arg4 : Memref sig .tc .vmem S3072x64 .bf16) (harg4 : arg4.IsWhole)
    (x0 : Vec F S3072x64 .f32) (x1 : Vec F S64x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (stored x0 x1 x2)) -∗ K ⟨⟩))
      ⊢ wp frame (wpE (defs₀ (F := F)) Variants.none c none) E (cc0__linear_relu_kernel i arg1 harg1 arg2 harg2 arg3 harg3 arg4 harg4) K := by
  simp only [cc0__linear_relu_kernel_eq_skeleton]; unfold cc0__linear_relu_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (stored_cover _)

/-- The proof data: the arrays as the region finds them; after the body each input's buffer at its block and the
    output's at `stored` of the three blocks; the invariant is the scoped rest and the generator register, untouched. -/
def dat (c : Dev nD) : Dat τ (Elt F) Unit ℕ (UR sig nD τ) ℕ cfg0 c where
  A w := V c (Pipeline.arrRef spec0 w)
  after w t := match w with
    | ⟨0, _⟩ => blk V c 0 t
    | ⟨1, _⟩ => blk V c 1 t
    | ⟨2, _⟩ => blk V c 2 t
    | ⟨3, _⟩ => stored (blk V c 0 t) (blk V c 1 t) (blk V c 2 t)
  Φ _ := Pipeline.ΦA spec0 c
  q _ := fullShare
  owed _ := 0

theorem A_eq (c : Dev nD) (w : Fin cfg0.W) : (dat V c).A w = V c (Pipeline.arrRef spec0 w) := by
  dsimp only [dat]

theorem after_0 (c : Dev nD) (t : Fin cfg0.N) : (dat V c).after 0 t = blk V c 0 t := by dsimp only [dat]
theorem after_1 (c : Dev nD) (t : Fin cfg0.N) : (dat V c).after 1 t = blk V c 1 t := by dsimp only [dat]
theorem after_2 (c : Dev nD) (t : Fin cfg0.N) : (dat V c).after 2 t = blk V c 2 t := by dsimp only [dat]
theorem after_3 (c : Dev nD) (t : Fin cfg0.N) :
    (dat V c).after 3 t = stored (blk V c 0 t) (blk V c 1 t) (blk V c 2 t) := by dsimp only [dat]

theorem before_0 (c : Dev nD) (t : Fin cfg0.N) (d) : (dat V c).before 0 t d = blk V c 0 t :=
  before_in0 V (dat V c) (A_eq V c 0) (after_0 V c) t d
theorem before_1 (c : Dev nD) (t : Fin cfg0.N) (d) : (dat V c).before 1 t d = blk V c 1 t :=
  before_in1 V (dat V c) (A_eq V c 1) (after_1 V c) t d
theorem before_2 (c : Dev nD) (t : Fin cfg0.N) (d) : (dat V c).before 2 t d = blk V c 2 t :=
  before_in2 V (dat V c) (A_eq V c 2) (after_2 V c) t d

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t))

theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2]
  rw [show (dat V c).Φ t.succ = (dat V c).Φ t.castSucc from rfl,
    show (dat V c).owesAt () t.succ = (dat V c).owesAt () t.castSucc from rfl,
    after_0, after_1, after_2, after_3]
  iintro ⟨HΦ, Ho, ⟨%d0, H0⟩, ⟨%d1, H1⟩, ⟨%d2, H2⟩, ⟨%d3, H3⟩⟩
  iapply (sound_kernel c Set.univ _ _ _ _ _ _ _ _ _ (blk V c 0 t) (blk V c 1 t) (blk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation (c : Dev nD) : BodyObligation (dat (F := F) V c) (defs₀ (F := F)) Variants.none () Set.univ := fun t => by
  rw [bigSep_W0, bigSep_W0]
  exact sound_body V c t

end Cert.Kernel.Lin

end
-- ==== Proof.GramBodyBits.lean ====
/-
  The Gram product's kernel (the second pallas_call) at a grid point.

  Its grid is 6 × 6; point (i, j) reads rows 2048·i … of the activations through one window and rows 2048·j …
  of the SAME array through another, and stores the 2048 × 2048 block of all their inner products. Both input
  windows only read the array, so each is dealt one half of its share. Here: the blocks the windows hold at a point,
  the stored block as a function of the two blocks read, the body's triple, and the proof data the pipeline's
  launch rule asks for — stated at any contents V of the core's buffers at the region's entry.
-/
import proofs.«144663_j39032662786657_2_alg».proof.Proof.Gen.Kernel.Launch
import proofs.«144663_j39032662786657_2_alg».proof.Proof.Gen.Kernel.Skeleton
import proofs.«144663_j39032662786657_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gram

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w`'s array that point `t` works on, read off the entry contents. -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, whether the pipeline fetched it there or kept
    it from the point before (an unfetched window's block index has not moved). -/
theorem before_in0 {c : Dev nD} (dat : Dat τ (Elt F) Unit ℕ (UR sig nD τ) ℕ cfg1 c)
    (hA : dat.A 0 = V c (Pipeline.arrRef spec1 0))
    (hafter : ∀ t, dat.after 0 t = blk V c 0 t) (t : Fin cfg1.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)

/-- Input window 1's staging buffer holds its block at every point, whether the pipeline fetched it there or kept
    it from the point before (an unfetched window's block index has not moved). -/
theorem before_in1 {c : Dev nD} (dat : Dat τ (Elt F) Unit ℕ (UR sig nD τ) ℕ cfg1 c)
    (hA : dat.A 1 = V c (Pipeline.arrRef spec1 1))
    (hafter : ∀ t, dat.after 1 t = blk V c 1 t) (t : Fin cfg1.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)

/-- The whole-buffer rectangles the body loads and stores through. -/
abbrev rRows : Rect S2048x64 := Rect.unit (s := S2048x64) ![0, 0] S2048x64.size inb_S2048x64_S2048x64_0_0
abbrev rOut : Rect S2048x2048 := Rect.unit (s := S2048x2048) ![0, 0] S2048x2048.size inb_S2048x2048_S2048x2048_0_0

/-- What the body leaves in the output window's buffer: its one store, of the payload of the two blocks read. -/
def stored (x0 : Vec F S2048x64 .bf16) (x1 : Vec F S2048x64 .bf16) : Vec F S2048x2048 .f32 :=
  View.canon [⟨rOut, k1_pay1 (View.ld x0 rRows) (View.ld x1 rRows)⟩]

/-- The one store covers the buffer. -/
theorem stored_cover (p0 : Vec F S2048x2048 .f32) (y : S2048x2048.Idx) :
    ∃ pc ∈ ([⟨rOut, p0⟩] : List (View.Piece (Elt F) S2048x2048 .f32)), y ∈ pc.1.set :=
  View.cover_of_tiled [⟨rOut, p0⟩] S2048x2048.size (by rfl) y

set_option maxHeartbeats 1000000 in
/-- The body on whole staging buffers: the two inputs are left as found, the output buffer ends at `stored`. -/
theorem sound_kernel (c : Dev nD) (E : Set ℕ) (i : grid1.Coords)
    (arg2 : Memref sig .tc .vmem S2048x64 .bf16) (harg2 : arg2.IsWhole) (arg3 : Memref sig .tc .vmem S2048x64 .bf16) (harg3 : arg3.IsWhole)
    (arg4 : Memref sig .tc .vmem S2048x2048 .f32) (harg4 : arg4.IsWhole)
    (x0 : Vec F S2048x64 .bf16) (x1 : Vec F S2048x64 .bf16) (K : PUnit → sProp 𝕄) :
    iprop(owns (c : Thread nD τ) arg2 fullShare x0 ∗ owns (c : Thread nD τ) arg3 fullShare x1
        ∗ (∃ d, owns (c : Thread nD τ) arg4 fullShare d)
        ∗ (iprop(owns (c : Thread nD τ) arg2 fullShare x0 ∗ owns (c : Thread nD τ) arg3 fullShare x1
            ∗ owns (c : Thread nD τ) arg4 fullShare (stored x0 x1)) -∗ K ⟨⟩))
      ⊢ wp frame (wpE (defs₀ (F := F)) Variants.none c none) E (cc1__pairwise_matmul_kernel i arg2 harg2 arg3 harg3 arg4 harg4) K := by
  simp only [cc1__pairwise_matmul_kernel_eq_skeleton]; unfold cc1__pairwise_matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (stored_cover _)

/-- The proof data: the arrays as the region finds them; after the body each input's buffer at its block and the
    output's at `stored` of the two blocks; the two readers of the activations hold complementary halves of it. -/
def dat (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => stored (blk V c 0 t) (blk V c 1 t)
  Φ _ := Pipeline.ΦA spec1 c
  q w := match w with
    | ⟨0, _⟩ => fullShare.left
    | ⟨1, _⟩ => fullShare.right
    | ⟨2, _⟩ => fullShare
  owed _ := 0

theorem A_eq (c : Dev nD) (w : Fin cfg1.W) : (dat V c).A w = V c (Pipeline.arrRef spec1 w) := by
  dsimp only [dat]

theorem after_0 (c : Dev nD) (t : Fin cfg1.N) : (dat V c).after 0 t = blk V c 0 t := by dsimp only [dat]
theorem after_1 (c : Dev nD) (t : Fin cfg1.N) : (dat V c).after 1 t = blk V c 1 t := by dsimp only [dat]
theorem after_2 (c : Dev nD) (t : Fin cfg1.N) :
    (dat V c).after 2 t = stored (blk V c 0 t) (blk V c 1 t) := by dsimp only [dat]

theorem before_0 (c : Dev nD) (t : Fin cfg1.N) (d) : (dat V c).before 0 t d = blk V c 0 t :=
  before_in0 V (dat V c) (A_eq V c 0) (after_0 V c) t d
theorem before_1 (c : Dev nD) (t : Fin cfg1.N) (d) : (dat V c).before 1 t d = blk V c 1 t :=
  before_in1 V (dat V c) (A_eq V c 1) (after_1 V c) t d

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d)))

/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t))

theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1]
  rw [show (dat V c).Φ t.succ = (dat V c).Φ t.castSucc from rfl,
    show (dat V c).owesAt () t.succ = (dat V c).owesAt () t.castSucc from rfl,
    after_0, after_1, after_2]
  iintro ⟨HΦ, Ho, ⟨%d0, H0⟩, ⟨%d1, H1⟩, ⟨%d2, H2⟩⟩
  iapply (sound_kernel c Set.univ _ _ _ _ _ _ _ (blk V c 0 t) (blk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dat (F := F) V c) (defs₀ (F := F)) Variants.none () Set.univ := fun t => by
  rw [bigSep_W1, bigSep_W1]
  exact sound_body V c t

end Cert.Kernel.Gram

end
-- ==== Proof.WholeBits.lean ====
/-
  The whole program's run: host operations, the linear layer's region, the Gram product's region.

  Between the three items core c's unscoped buffers hold: at launch the memory; after the host operations their
  fold over it; after the first region the same but for the activations' array, which holds what the write-backs
  of the four grid points leave; after the second region the same but for the result array, which holds what the
  write-backs of the 36 grid points leave. The first region's arrays are distinct buffers. The second region reads
  the activations' array through two windows: its full share is split in two halves at the region's entry, one per
  window, and joined again at the exit. Every weakly fair execution then terminates with every unscoped buffer at
  the last of these contents.
-/
import proofs.«144663_j39032662786657_2_alg».proof.Proof.LinBodyBits
import proofs.«144663_j39032662786657_2_alg».proof.Proof.GramBodyBits
import proofs.«144663_j39032662786657_2_alg».proof.Proof.Gen.Kernel.Regions

set_option maxRecDepth 16384

noncomputable section

namespace Cert.Kernel.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The second region's arrays: two buffers behind three windows -/

section Shared

variable (V : (c : Dev nD) → (b : Ref sig .tc) → Buf (Elt F) ((c : Thread nD τ).loc b))

/-- The buffers behind the second region's windows are the activations' array and the result array. -/
theorem arrBufs_eq (c : Dev nD) (X : (b : Ref sig .tc) → Buf (Elt F) ((c : Thread nD τ).loc b)) :
    (Pipeline.arrBufs (Ix := Unit) (Name := ℕ) (U := UR sig nD τ) (Lvl := ℕ) spec1 c X : sProp 𝕄)
      = iprop((((c : Thread nD τ).loc main_v32) ↦{fullShare} X main_v32) ∗ (((c : Thread nD τ).loc main_v33) ↦{fullShare} X main_v33)) := by
  unfold Pipeline.arrBufs
  rw [show (Finset.univ.image (Pipeline.arrRef spec1)) = {main_v32, main_v33} from by decide, bigSep_insert (by decide), bigSep_singleton]
  rfl

/-- A core's unscoped buffers are those two and the rest. -/
theorem unscoped_split (c : Dev nD) (X : (b : Ref sig .tc) → Buf (Elt F) ((c : Thread nD τ).loc b)) :
    (unscopedBufs (Ix := Unit) (Name := ℕ) (U := UR sig nD τ) (Lvl := ℕ) c X : sProp 𝕄)
      = iprop(Pipeline.arrBufs spec1 c X ∗ Pipeline.unscopedRest spec1 c X) := by
  have hA : Finset.univ.image (Pipeline.arrRef spec1) ⊆ Finset.univ.filter fun b : Ref sig .tc => ¬ b.isScoped := by decide
  unfold unscopedBufs Pipeline.unscopedRest Pipeline.arrBufs
  rw [bigSep_sdiff_split hA]
  rfl

/-- The second region's arrays as the proof data holds them: each reader of the activations at its half. -/
theorem gram_arrays (c : Dev nD) (Fn : (w : Fin cfg1.W) → Buf (Elt F) ((cfg1.win w).arr.view.loc (c : Thread nD τ))) :
    ((Gram.dat V c).arrays Fn : sProp 𝕄)
      = iprop((((c : Thread nD τ).loc main_v32) ↦{fullShare.left} Fn 0) ∗ (((c : Thread nD τ).loc main_v32) ↦{fullShare.right} Fn 1)
          ∗ (((c : Thread nD τ).loc main_v33) ↦{fullShare} Fn 2)) := by
  have h0 : (cfg1.win 0).arr.view.set = Finset.univ := (arr_whole1 0).set_eq_univ
  have h1 : (cfg1.win 1).arr.view.set = Finset.univ := (arr_whole1 1).set_eq_univ
  have h2 : (cfg1.win 2).arr.view.set = Finset.univ := (arr_whole1 2).set_eq_univ
  unfold Dat.arrays
  rw [bigSep_W1]
  simp only [h0, h1, h2]
  rfl

/-- ENTRY: the unscoped buffers at `V` give the second region its arrays at their entry contents, and the rest. -/
theorem gram_entry (c : Dev nD) :
    (unscopedBufs (Ix := Unit) (Name := ℕ) (U := UR sig nD τ) (Lvl := ℕ) c (V c) : sProp 𝕄)
      ⊢ iprop((Gram.dat V c).arrays ((Gram.dat V c).arrAt · 0) ∗ Pipeline.unscopedRest spec1 c (V c)) := by
  rw [unscoped_split, arrBufs_eq, gram_arrays]
  show iprop(((((c : Thread nD τ).loc main_v32) ↦{fullShare} V c main_v32) ∗ (((c : Thread nD τ).loc main_v33) ↦{fullShare} V c main_v33))
      ∗ Pipeline.unscopedRest spec1 c (V c))
    ⊢ (iprop(((((c : Thread nD τ).loc main_v32) ↦{fullShare.left} V c main_v32) ∗ (((c : Thread nD τ).loc main_v32) ↦{fullShare.right} V c main_v32)
        ∗ (((c : Thread nD τ).loc main_v33) ↦{fullShare} V c main_v33)) ∗ Pipeline.unscopedRest spec1 c (V c)) : sProp 𝕄)
  iintro ⟨⟨H32, H33⟩, Hrest⟩
  ihave H := (pointsTo_share (PosShare.mem_left_op_right fullShare)).1 $$ H32
  icases H with ⟨Hl, Hr⟩
  isplitr [Hrest]
  · isplitl [Hl]; · iexact Hl
    isplitl [Hr]; · iexact Hr
    iexact H33
  · iexact Hrest

/-- EXIT: the second region's arrays at what it leaves — the activations as found, through both windows, the result
    array at what the write-backs leave — and the rest at `V` are the unscoped buffers at any contents `X` that hold
    that in the result array and agree with `V` elsewhere. -/
theorem gram_exit (c : Dev nD) (X : (b : Ref sig .tc) → Buf (Elt F) ((c : Thread nD τ).loc b))
    (hout : X main_v33 = (Gram.dat V c).arrAt 2 cfg1.N) (hkeep : ∀ b, b ≠ main_v33 → X b = V c b) :
    iprop((Gram.dat V c).arrays ((Gram.dat V c).arrAt · cfg1.N) ∗ Pipeline.unscopedRest spec1 c (V c))
      ⊢ (unscopedBufs (Ix := Unit) (Name := ℕ) (U := UR sig nD τ) (Lvl := ℕ) c X : sProp 𝕄) := by
  have hrest : (Pipeline.unscopedRest (Ix := Unit) (Name := ℕ) (U := UR sig nD τ) (Lvl := ℕ) spec1 c X : sProp 𝕄)
      = Pipeline.unscopedRest spec1 c (V c) := by
    unfold Pipeline.unscopedRest
    refine bigSep_congr fun b hb => ?_
    rw [hkeep b (fun e => (Finset.mem_sdiff.mp hb).2 (e ▸ Finset.mem_image.mpr ⟨2, Finset.mem_univ _, rfl⟩))]
  have e0 : (Gram.dat V c).arrAt 0 cfg1.N = V c main_v32 := ((Gram.dat V c).arrAt_in 0 rfl _).trans (Gram.A_eq V c 0)
  have e1 : (Gram.dat V c).arrAt 1 cfg1.N = V c main_v32 := ((Gram.dat V c).arrAt_in 1 rfl _).trans (Gram.A_eq V c 1)
  rw [unscoped_split, arrBufs_eq, gram_arrays, hrest, hout, hkeep main_v32 (by decide)]
  show iprop(((((c : Thread nD τ).loc main_v32) ↦{fullShare.left} (Gram.dat V c).arrAt 0 cfg1.N)
        ∗ (((c : Thread nD τ).loc main_v32) ↦{fullShare.right} (Gram.dat V c).arrAt 1 cfg1.N)
        ∗ (((c : Thread nD τ).loc main_v33) ↦{fullShare} (Gram.dat V c).arrAt 2 cfg1.N)) ∗ Pipeline.unscopedRest spec1 c (V c))
    ⊢ (iprop(((((c : Thread nD τ).loc main_v32) ↦{fullShare} V c main_v32)
        ∗ (((c : Thread nD τ).loc main_v33) ↦{fullShare} (Gram.dat V c).arrAt 2 cfg1.N)) ∗ Pipeline.unscopedRest spec1 c (V c)) : sProp 𝕄)
  rw [e0, e1]
  iintro ⟨⟨Hl, Hr, H33⟩, Hrest⟩
  isplitr [Hrest]
  · isplitr [H33]
    · iapply (pointsTo_share (PosShare.mem_left_op_right fullShare)).2
      isplitl [Hl]; · iexact Hl
      iexact Hr
    · iexact H33
  · iexact Hrest

end Shared

variable (m : (ℓ : Loc nD τ sig) → Buf (Elt F) ℓ) (ρ : Dev nD → PrngReg)

/-! ## The buffers' contents between the items -/

/-- Core `c`'s buffers at launch, and after the host operations. -/
abbrev W0 : Dev nD → Valuation τ sig (Elt F) := fun c => Gen.V0 m c
abbrev W1 : Dev nD → Valuation τ sig (Elt F) := fun c => Gen.V1 m c
abbrev E1 : (c : Dev nD) → (b : Ref sig .tc) → Buf (Elt F) ((c : Thread nD τ).loc b) := fun c b => W1 m c b

/-- After the first region: its arrays at what the pipeline leaves, every other buffer as entered. -/
def W2 (c : Dev nD) : Valuation τ sig (Elt F) :=
  Pipeline.withArrays spec0 c (W1 m c) fun w => (Lin.dat (E1 m) c).arrAt w cfg0.N
theorem W2_arr (c : Dev nD) (w : Fin cfg0.W) :
    W2 m c (Proc.devRef .tc (Pipeline.arrRef spec0 w)) = (Lin.dat (E1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev E2 : (c : Dev nD) → (b : Ref sig .tc) → Buf (Elt F) ((c : Thread nD τ).loc b) := fun c b => W2 m c b
theorem lin_left (c : Dev nD) (w : Fin cfg0.W) : (Lin.dat (E1 m) c).arrAt w cfg0.N = E2 m c (Pipeline.arrRef spec0 w) :=
  (W2_arr m c w).symm
theorem lin_kept (c : Dev nD) : ∀ b, b ∉ Finset.univ.image (Pipeline.arrRef spec0) → E2 m c b = E1 m c b :=
  fun b hb => W2_of_ne m c b fun w e => hb (Finset.mem_image.mpr ⟨w, Finset.mem_univ _, e⟩)

/-- After the second region: the result array at what the pipeline leaves, every other buffer as entered. -/
def W3 (c : Dev nD) : Valuation τ sig (Elt F) :=
  Function.update (W2 m c) (Proc.devRef .tc main_v33) ((Gram.dat (E2 m) c).arrAt 2 cfg1.N)
theorem W3_out (c : Dev nD) : W3 m c (Proc.devRef .tc main_v33) = (Gram.dat (E2 m) c).arrAt 2 cfg1.N := by
  unfold W3; exact Function.update_self ..
theorem W3_of_ne (c : Dev nD) (b : Ref sig .tc) (hb : b ≠ main_v33) :
    W3 m c (Proc.devRef .tc b) = W2 m c (Proc.devRef .tc b) := by
  unfold W3; exact Function.update_of_ne (StableHlo.devRef_ne_of_ne hb) ..
abbrev E3 : (c : Dev nD) → (b : Ref sig .tc) → Buf (Elt F) ((c : Thread nD τ).loc b) := fun c b => W3 m c b

/-! ## The proof data family and the thread state -/

abbrev adm : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => Lin.dat (E1 m) c
  | ⟨1, _⟩ => fun c => Gram.dat (E2 m) c
abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m c) ∗ ∃ r, prngReg c r)

/-! ## The regions as segments -/

set_option backward.isDefEq.respectTransparency.types false in
/-- The linear layer's region: its four arrays are distinct buffers, split out of the unscoped buffers at entry and put
    back at the exit contents; the generator register passes through the invariant; nothing owed. -/
def regLin : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Lin.body_obligation (E1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (lin_left m c) (lin_kept m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The Gram product's region: the activations' array is dealt in halves to its two readers at entry and joined at the
    exit, the result array ends at what the write-backs leave; the rest as for the first region. -/
def regGram : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (Gram.body_obligation (E2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (E2 m c)
  hentry c := by
    rw [Pipeline.ownSems0_none]
    have hsplit := gram_entry (E2 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := gram_exit (E2 m) c (E3 m c) (W3_out m c) (fun b hb => W3_of_ne m c b hb)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm (pdats m) () defs₀ 𝒱₀ L lv) :=
  [ .host (hseg hostOps0 hostOps0_sub Gen.hostOps0_fresh (W0 m)),
    .region (regLin m),
    .region (regGram m) ]
theorem main_run (c : Dev nD) : main (F := F) c = Pipeline.Seg.run (segs m) := (main_chain c).trans (by chain_rfl)

set_option backward.isDefEq.respectTransparency.types false in
/-- Every weakly fair execution from memory `m` with zero counters terminates, nothing faulting, and every unscoped buffer of
    every core ends at the contents after the second region. -/
theorem run : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun c => by
      show iprop(StableHlo.held (c : Thread nD τ) (Pipeline.ucRefs τ sig) (W3 m c) ∗ R c)
        ⊢ (iprop(Tₙ m c ∗ ∃ W, owes (c : Thread nD τ) (0 : CellTallies nD τ sig Unit) W) : sProp 𝕄)
      iintro ⟨Hh, Hp, HO⟩
      isplitl [Hh Hp]
      · isplitl [Hh]; · iexact Hh
        iexact Hp
      · iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

/-! ## The arguments end as launched -/

/-- No host operation and no region writes an argument: the weights are read by the first region, the others bypass both. -/
theorem W3_arg (c : Dev nD) (b : Ref sig .tc) (h33 : b ≠ main_v33) (hlin : ∀ w, Pipeline.arrRef spec0 w ≠ b)
    (hhost : b ∉ Gen.hostOps0_W) : W3 m c (Proc.devRef .tc b) = m ((c : Thread nD τ).loc b) :=
  (W3_of_ne m c b h33).trans <| (W2_of_ne m c b hlin).trans <| Gen.V1_of m c b hhost

theorem W3_main_arg1 (c : Dev nD) : W3 m c (Proc.devRef .tc main_arg1) = m ((c : Thread nD τ).loc main_arg1) :=
  (W3_of_ne m c main_arg1 (by decide)).trans <| (W2_arr m c 1).trans <|
    (((Lin.dat (E1 m) c).arrAt_in 1 rfl _).trans (Lin.A_eq (E1 m) c 1)).trans <| Gen.V1_of m c main_arg1 (by decide)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (W3_arg m c main_arg0 (by decide) (by decide) (by decide)),
     (h c _ (mem_uc main_arg1 (by decide))).trans (W3_main_arg1 m c),
     (h c _ (mem_uc main_arg2 (by decide))).trans (W3_arg m c main_arg2 (by decide) (by decide) (by decide)),
     (h c _ (mem_uc main_arg3 (by decide))).trans (W3_arg m c main_arg3 (by decide) (by decide) (by decide)),
     (h c _ (mem_uc main_arg4 (by decide))).trans (W3_arg m c main_arg4 (by decide) (by decide) (by decide))⟩) (run m ρ)

end Cert.Kernel.Whole

end
-- ==== Proof.LinBodyIdeal.lean ====
/-
  The linear layer's kernel (the first pallas_call) at a grid point.

  Its grid has four points; point t works on rows 3072·t … 3072·t + 3071 of the aggregated features.
  The body reads that block of rows, the whole 64×64 weight matrix and the bias row, and stores
  max(rows · W + bias, 0) over its whole output block. Here: the blocks the windows hold at a point,
  the stored block as a function of the three blocks read, the body's triple, and the proof data
  the pipeline's launch rule asks for — stated at any contents V of the core's buffers at the region's entry.
-/
import proofs.«144663_j39032662786657_2_alg».proof.Proof.Gen.KernelIdeal.Launch
import proofs.«144663_j39032662786657_2_alg».proof.Proof.Gen.KernelIdeal.Skeleton
import proofs.«144663_j39032662786657_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Lin

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w`'s array that point `t` works on, read off the entry contents. -/
def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, whether the pipeline fetched it there or kept
    it from the point before (an unfetched window's block index has not moved). -/
theorem before_in0 {c : Dev nD} (dat : Dat τ (Elt F) Unit ℕ (UR sig nD τ) ℕ cfg0 c)
    (hA : dat.A 0 = V c (Pipeline.arrRef spec0 0))
    (hafter : ∀ t, dat.after 0 t = blk V c 0 t) (t : Fin cfg0.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)

/-- Input window 1's staging buffer holds its block at every point, whether the pipeline fetched it there or kept
    it from the point before (an unfetched window's block index has not moved). -/
theorem before_in1 {c : Dev nD} (dat : Dat τ (Elt F) Unit ℕ (UR sig nD τ) ℕ cfg0 c)
    (hA : dat.A 1 = V c (Pipeline.arrRef spec0 1))
    (hafter : ∀ t, dat.after 1 t = blk V c 1 t) (t : Fin cfg0.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)

/-- Input window 2's staging buffer holds its block at every point, whether the pipeline fetched it there or kept
    it from the point before (an unfetched window's block index has not moved). -/
theorem before_in2 {c : Dev nD} (dat : Dat τ (Elt F) Unit ℕ (UR sig nD τ) ℕ cfg0 c)
    (hA : dat.A 2 = V c (Pipeline.arrRef spec0 2))
    (hafter : ∀ t, dat.after 2 t = blk V c 2 t) (t : Fin cfg0.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)

/-- The whole-buffer rectangles the body loads and stores through. -/
abbrev rRows : Rect S3072x64 := Rect.unit (s := S3072x64) ![0, 0] S3072x64.size inb_S3072x64_S3072x64_0_0
abbrev rW : Rect S64x64 := Rect.unit (s := S64x64) ![0, 0] S64x64.size inb_S64x64_S64x64_0_0
abbrev rBias : Rect S1x64 := Rect.unit (s := S1x64) ![0, 0] S1x64.size inb_S1x64_S1x64_0_0

/-- What the body leaves in the output window's buffer: its one store, of the payload of the three blocks read. -/
def stored (x0 : Vec F S3072x64 .f32) (x1 : Vec F S64x64 .f32) (x2 : Vec F S1x64 .f32) : Vec F S3072x64 .bf16 :=
  View.canon [⟨rRows, k0_pay1 (View.ld x0 rRows) (View.ld x1 rW) (View.ld x2 rBias)⟩]

/-- The one store covers the buffer. -/
theorem stored_cover (p0 : Vec F S3072x64 .bf16) (y : S3072x64.Idx) :
    ∃ pc ∈ ([⟨rRows, p0⟩] : List (View.Piece (Elt F) S3072x64 .bf16)), y ∈ pc.1.set :=
  View.cover_of_tiled [⟨rRows, p0⟩] S3072x64.size (by rfl) y

set_option maxHeartbeats 1000000 in
/-- The body on whole staging buffers: the three inputs are left as found, the output buffer ends at `stored`. -/
theorem sound_kernel (c : Dev nD) (E : Set ℕ) (i : grid0.Coords)
    (arg1 : Memref sig .tc .vmem S3072x64 .f32) (harg1 : arg1.IsWhole) (arg2 : Memref sig .tc .vmem S64x64 .f32) (harg2 : arg2.IsWhole)
    (arg3 : Memref sig .tc .vmem S1x64 .f32) (harg3 : arg3.IsWhole) (arg4 : Memref sig .tc .vmem S3072x64 .bf16) (harg4 : arg4.IsWhole)
    (x0 : Vec F S3072x64 .f32) (x1 : Vec F S64x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (stored x0 x1 x2)) -∗ K ⟨⟩))
      ⊢ wp frame (wpE (defs₀ (F := F)) Variants.none c none) E (cc0__linear_relu_kernel i arg1 harg1 arg2 harg2 arg3 harg3 arg4 harg4) K := by
  simp only [cc0__linear_relu_kernel_eq_skeleton]; unfold cc0__linear_relu_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (stored_cover _)

/-- The proof data: the arrays as the region finds them; after the body each input's buffer at its block and the
    output's at `stored` of the three blocks; the invariant is the scoped rest and the generator register, untouched. -/
def dat (c : Dev nD) : Dat τ (Elt F) Unit ℕ (UR sig nD τ) ℕ cfg0 c where
  A w := V c (Pipeline.arrRef spec0 w)
  after w t := match w with
    | ⟨0, _⟩ => blk V c 0 t
    | ⟨1, _⟩ => blk V c 1 t
    | ⟨2, _⟩ => blk V c 2 t
    | ⟨3, _⟩ => stored (blk V c 0 t) (blk V c 1 t) (blk V c 2 t)
  Φ _ := Pipeline.ΦA spec0 c
  q _ := fullShare
  owed _ := 0

theorem A_eq (c : Dev nD) (w : Fin cfg0.W) : (dat V c).A w = V c (Pipeline.arrRef spec0 w) := by
  dsimp only [dat]

theorem after_0 (c : Dev nD) (t : Fin cfg0.N) : (dat V c).after 0 t = blk V c 0 t := by dsimp only [dat]
theorem after_1 (c : Dev nD) (t : Fin cfg0.N) : (dat V c).after 1 t = blk V c 1 t := by dsimp only [dat]
theorem after_2 (c : Dev nD) (t : Fin cfg0.N) : (dat V c).after 2 t = blk V c 2 t := by dsimp only [dat]
theorem after_3 (c : Dev nD) (t : Fin cfg0.N) :
    (dat V c).after 3 t = stored (blk V c 0 t) (blk V c 1 t) (blk V c 2 t) := by dsimp only [dat]

theorem before_0 (c : Dev nD) (t : Fin cfg0.N) (d) : (dat V c).before 0 t d = blk V c 0 t :=
  before_in0 V (dat V c) (A_eq V c 0) (after_0 V c) t d
theorem before_1 (c : Dev nD) (t : Fin cfg0.N) (d) : (dat V c).before 1 t d = blk V c 1 t :=
  before_in1 V (dat V c) (A_eq V c 1) (after_1 V c) t d
theorem before_2 (c : Dev nD) (t : Fin cfg0.N) (d) : (dat V c).before 2 t d = blk V c 2 t :=
  before_in2 V (dat V c) (A_eq V c 2) (after_2 V c) t d

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t))

theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2]
  rw [show (dat V c).Φ t.succ = (dat V c).Φ t.castSucc from rfl,
    show (dat V c).owesAt () t.succ = (dat V c).owesAt () t.castSucc from rfl,
    after_0, after_1, after_2, after_3]
  iintro ⟨HΦ, Ho, ⟨%d0, H0⟩, ⟨%d1, H1⟩, ⟨%d2, H2⟩, ⟨%d3, H3⟩⟩
  iapply (sound_kernel c Set.univ _ _ _ _ _ _ _ _ _ (blk V c 0 t) (blk V c 1 t) (blk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation (c : Dev nD) : BodyObligation (dat (F := F) V c) (defs₀ (F := F)) Variants.none () Set.univ := fun t => by
  rw [bigSep_W0, bigSep_W0]
  exact sound_body V c t

end Cert.KernelIdeal.Lin

end
-- ==== Proof.GramBodyIdeal.lean ====
/-
  The Gram product's kernel (the second pallas_call) at a grid point.

  Its grid is 6 × 6; point (i, j) reads rows 2048·i … of the activations through one window and rows 2048·j …
  of the SAME array through another, and stores the 2048 × 2048 block of all their inner products. Both input
  windows only read the array, so each is dealt one half of its share. Here: the blocks the windows hold at a point,
  the stored block as a function of the two blocks read, the body's triple, and the proof data the pipeline's
  launch rule asks for — stated at any contents V of the core's buffers at the region's entry.
-/
import proofs.«144663_j39032662786657_2_alg».proof.Proof.Gen.KernelIdeal.Launch
import proofs.«144663_j39032662786657_2_alg».proof.Proof.Gen.KernelIdeal.Skeleton
import proofs.«144663_j39032662786657_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gram

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w`'s array that point `t` works on, read off the entry contents. -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, whether the pipeline fetched it there or kept
    it from the point before (an unfetched window's block index has not moved). -/
theorem before_in0 {c : Dev nD} (dat : Dat τ (Elt F) Unit ℕ (UR sig nD τ) ℕ cfg1 c)
    (hA : dat.A 0 = V c (Pipeline.arrRef spec1 0))
    (hafter : ∀ t, dat.after 0 t = blk V c 0 t) (t : Fin cfg1.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)

/-- Input window 1's staging buffer holds its block at every point, whether the pipeline fetched it there or kept
    it from the point before (an unfetched window's block index has not moved). -/
theorem before_in1 {c : Dev nD} (dat : Dat τ (Elt F) Unit ℕ (UR sig nD τ) ℕ cfg1 c)
    (hA : dat.A 1 = V c (Pipeline.arrRef spec1 1))
    (hafter : ∀ t, dat.after 1 t = blk V c 1 t) (t : Fin cfg1.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)

/-- The whole-buffer rectangles the body loads and stores through. -/
abbrev rRows : Rect S2048x64 := Rect.unit (s := S2048x64) ![0, 0] S2048x64.size inb_S2048x64_S2048x64_0_0
abbrev rOut : Rect S2048x2048 := Rect.unit (s := S2048x2048) ![0, 0] S2048x2048.size inb_S2048x2048_S2048x2048_0_0

/-- What the body leaves in the output window's buffer: its one store, of the payload of the two blocks read. -/
def stored (x0 : Vec F S2048x64 .bf16) (x1 : Vec F S2048x64 .bf16) : Vec F S2048x2048 .f32 :=
  View.canon [⟨rOut, k1_pay1 (View.ld x0 rRows) (View.ld x1 rRows)⟩]

/-- The one store covers the buffer. -/
theorem stored_cover (p0 : Vec F S2048x2048 .f32) (y : S2048x2048.Idx) :
    ∃ pc ∈ ([⟨rOut, p0⟩] : List (View.Piece (Elt F) S2048x2048 .f32)), y ∈ pc.1.set :=
  View.cover_of_tiled [⟨rOut, p0⟩] S2048x2048.size (by rfl) y

set_option maxHeartbeats 1000000 in
/-- The body on whole staging buffers: the two inputs are left as found, the output buffer ends at `stored`. -/
theorem sound_kernel (c : Dev nD) (E : Set ℕ) (i : grid1.Coords)
    (arg2 : Memref sig .tc .vmem S2048x64 .bf16) (harg2 : arg2.IsWhole) (arg3 : Memref sig .tc .vmem S2048x64 .bf16) (harg3 : arg3.IsWhole)
    (arg4 : Memref sig .tc .vmem S2048x2048 .f32) (harg4 : arg4.IsWhole)
    (x0 : Vec F S2048x64 .bf16) (x1 : Vec F S2048x64 .bf16) (K : PUnit → sProp 𝕄) :
    iprop(owns (c : Thread nD τ) arg2 fullShare x0 ∗ owns (c : Thread nD τ) arg3 fullShare x1
        ∗ (∃ d, owns (c : Thread nD τ) arg4 fullShare d)
        ∗ (iprop(owns (c : Thread nD τ) arg2 fullShare x0 ∗ owns (c : Thread nD τ) arg3 fullShare x1
            ∗ owns (c : Thread nD τ) arg4 fullShare (stored x0 x1)) -∗ K ⟨⟩))
      ⊢ wp frame (wpE (defs₀ (F := F)) Variants.none c none) E (cc1__pairwise_matmul_kernel i arg2 harg2 arg3 harg3 arg4 harg4) K := by
  simp only [cc1__pairwise_matmul_kernel_eq_skeleton]; unfold cc1__pairwise_matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (stored_cover _)

/-- The proof data: the arrays as the region finds them; after the body each input's buffer at its block and the
    output's at `stored` of the two blocks; the two readers of the activations hold complementary halves of it. -/
def dat (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => stored (blk V c 0 t) (blk V c 1 t)
  Φ _ := Pipeline.ΦA spec1 c
  q w := match w with
    | ⟨0, _⟩ => fullShare.left
    | ⟨1, _⟩ => fullShare.right
    | ⟨2, _⟩ => fullShare
  owed _ := 0

theorem A_eq (c : Dev nD) (w : Fin cfg1.W) : (dat V c).A w = V c (Pipeline.arrRef spec1 w) := by
  dsimp only [dat]

theorem after_0 (c : Dev nD) (t : Fin cfg1.N) : (dat V c).after 0 t = blk V c 0 t := by dsimp only [dat]
theorem after_1 (c : Dev nD) (t : Fin cfg1.N) : (dat V c).after 1 t = blk V c 1 t := by dsimp only [dat]
theorem after_2 (c : Dev nD) (t : Fin cfg1.N) :
    (dat V c).after 2 t = stored (blk V c 0 t) (blk V c 1 t) := by dsimp only [dat]

theorem before_0 (c : Dev nD) (t : Fin cfg1.N) (d) : (dat V c).before 0 t d = blk V c 0 t :=
  before_in0 V (dat V c) (A_eq V c 0) (after_0 V c) t d
theorem before_1 (c : Dev nD) (t : Fin cfg1.N) (d) : (dat V c).before 1 t d = blk V c 1 t :=
  before_in1 V (dat V c) (A_eq V c 1) (after_1 V c) t d

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d)))

/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t))

theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1]
  rw [show (dat V c).Φ t.succ = (dat V c).Φ t.castSucc from rfl,
    show (dat V c).owesAt () t.succ = (dat V c).owesAt () t.castSucc from rfl,
    after_0, after_1, after_2]
  iintro ⟨HΦ, Ho, ⟨%d0, H0⟩, ⟨%d1, H1⟩, ⟨%d2, H2⟩⟩
  iapply (sound_kernel c Set.univ _ _ _ _ _ _ _ (blk V c 0 t) (blk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dat (F := F) V c) (defs₀ (F := F)) Variants.none () Set.univ := fun t => by
  rw [bigSep_W1, bigSep_W1]
  exact sound_body V c t

end Cert.KernelIdeal.Gram

end
-- ==== Proof.WholeIdeal.lean ====
/-
  The whole program's run: host operations, the linear layer's region, the Gram product's region.

  Between the three items core c's unscoped buffers hold: at launch the memory; after the host operations their
  fold over it; after the first region the same but for the activations' array, which holds what the write-backs
  of the four grid points leave; after the second region the same but for the result array, which holds what the
  write-backs of the 36 grid points leave. The first region's arrays are distinct buffers. The second region reads
  the activations' array through two windows: its full share is split in two halves at the region's entry, one per
  window, and joined again at the exit. Every weakly fair execution then terminates with every unscoped buffer at
  the last of these contents.
-/
import proofs.«144663_j39032662786657_2_alg».proof.Proof.LinBodyIdeal
import proofs.«144663_j39032662786657_2_alg».proof.Proof.GramBodyIdeal
import proofs.«144663_j39032662786657_2_alg».proof.Proof.Gen.KernelIdeal.Regions

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The second region's arrays: two buffers behind three windows -/

section Shared

variable (V : (c : Dev nD) → (b : Ref sig .tc) → Buf (Elt F) ((c : Thread nD τ).loc b))

/-- The buffers behind the second region's windows are the activations' array and the result array. -/
theorem arrBufs_eq (c : Dev nD) (X : (b : Ref sig .tc) → Buf (Elt F) ((c : Thread nD τ).loc b)) :
    (Pipeline.arrBufs (Ix := Unit) (Name := ℕ) (U := UR sig nD τ) (Lvl := ℕ) spec1 c X : sProp 𝕄)
      = iprop((((c : Thread nD τ).loc main_v32) ↦{fullShare} X main_v32) ∗ (((c : Thread nD τ).loc main_v33) ↦{fullShare} X main_v33)) := by
  unfold Pipeline.arrBufs
  rw [show (Finset.univ.image (Pipeline.arrRef spec1)) = {main_v32, main_v33} from by decide, bigSep_insert (by decide), bigSep_singleton]
  rfl

/-- A core's unscoped buffers are those two and the rest. -/
theorem unscoped_split (c : Dev nD) (X : (b : Ref sig .tc) → Buf (Elt F) ((c : Thread nD τ).loc b)) :
    (unscopedBufs (Ix := Unit) (Name := ℕ) (U := UR sig nD τ) (Lvl := ℕ) c X : sProp 𝕄)
      = iprop(Pipeline.arrBufs spec1 c X ∗ Pipeline.unscopedRest spec1 c X) := by
  have hA : Finset.univ.image (Pipeline.arrRef spec1) ⊆ Finset.univ.filter fun b : Ref sig .tc => ¬ b.isScoped := by decide
  unfold unscopedBufs Pipeline.unscopedRest Pipeline.arrBufs
  rw [bigSep_sdiff_split hA]
  rfl

/-- The second region's arrays as the proof data holds them: each reader of the activations at its half. -/
theorem gram_arrays (c : Dev nD) (Fn : (w : Fin cfg1.W) → Buf (Elt F) ((cfg1.win w).arr.view.loc (c : Thread nD τ))) :
    ((Gram.dat V c).arrays Fn : sProp 𝕄)
      = iprop((((c : Thread nD τ).loc main_v32) ↦{fullShare.left} Fn 0) ∗ (((c : Thread nD τ).loc main_v32) ↦{fullShare.right} Fn 1)
          ∗ (((c : Thread nD τ).loc main_v33) ↦{fullShare} Fn 2)) := by
  have h0 : (cfg1.win 0).arr.view.set = Finset.univ := (arr_whole1 0).set_eq_univ
  have h1 : (cfg1.win 1).arr.view.set = Finset.univ := (arr_whole1 1).set_eq_univ
  have h2 : (cfg1.win 2).arr.view.set = Finset.univ := (arr_whole1 2).set_eq_univ
  unfold Dat.arrays
  rw [bigSep_W1]
  simp only [h0, h1, h2]
  rfl

/-- ENTRY: the unscoped buffers at `V` give the second region its arrays at their entry contents, and the rest. -/
theorem gram_entry (c : Dev nD) :
    (unscopedBufs (Ix := Unit) (Name := ℕ) (U := UR sig nD τ) (Lvl := ℕ) c (V c) : sProp 𝕄)
      ⊢ iprop((Gram.dat V c).arrays ((Gram.dat V c).arrAt · 0) ∗ Pipeline.unscopedRest spec1 c (V c)) := by
  rw [unscoped_split, arrBufs_eq, gram_arrays]
  show iprop(((((c : Thread nD τ).loc main_v32) ↦{fullShare} V c main_v32) ∗ (((c : Thread nD τ).loc main_v33) ↦{fullShare} V c main_v33))
      ∗ Pipeline.unscopedRest spec1 c (V c))
    ⊢ (iprop(((((c : Thread nD τ).loc main_v32) ↦{fullShare.left} V c main_v32) ∗ (((c : Thread nD τ).loc main_v32) ↦{fullShare.right} V c main_v32)
        ∗ (((c : Thread nD τ).loc main_v33) ↦{fullShare} V c main_v33)) ∗ Pipeline.unscopedRest spec1 c (V c)) : sProp 𝕄)
  iintro ⟨⟨H32, H33⟩, Hrest⟩
  ihave H := (pointsTo_share (PosShare.mem_left_op_right fullShare)).1 $$ H32
  icases H with ⟨Hl, Hr⟩
  isplitr [Hrest]
  · isplitl [Hl]; · iexact Hl
    isplitl [Hr]; · iexact Hr
    iexact H33
  · iexact Hrest

/-- EXIT: the second region's arrays at what it leaves — the activations as found, through both windows, the result
    array at what the write-backs leave — and the rest at `V` are the unscoped buffers at any contents `X` that hold
    that in the result array and agree with `V` elsewhere. -/
theorem gram_exit (c : Dev nD) (X : (b : Ref sig .tc) → Buf (Elt F) ((c : Thread nD τ).loc b))
    (hout : X main_v33 = (Gram.dat V c).arrAt 2 cfg1.N) (hkeep : ∀ b, b ≠ main_v33 → X b = V c b) :
    iprop((Gram.dat V c).arrays ((Gram.dat V c).arrAt · cfg1.N) ∗ Pipeline.unscopedRest spec1 c (V c))
      ⊢ (unscopedBufs (Ix := Unit) (Name := ℕ) (U := UR sig nD τ) (Lvl := ℕ) c X : sProp 𝕄) := by
  have hrest : (Pipeline.unscopedRest (Ix := Unit) (Name := ℕ) (U := UR sig nD τ) (Lvl := ℕ) spec1 c X : sProp 𝕄)
      = Pipeline.unscopedRest spec1 c (V c) := by
    unfold Pipeline.unscopedRest
    refine bigSep_congr fun b hb => ?_
    rw [hkeep b (fun e => (Finset.mem_sdiff.mp hb).2 (e ▸ Finset.mem_image.mpr ⟨2, Finset.mem_univ _, rfl⟩))]
  have e0 : (Gram.dat V c).arrAt 0 cfg1.N = V c main_v32 := ((Gram.dat V c).arrAt_in 0 rfl _).trans (Gram.A_eq V c 0)
  have e1 : (Gram.dat V c).arrAt 1 cfg1.N = V c main_v32 := ((Gram.dat V c).arrAt_in 1 rfl _).trans (Gram.A_eq V c 1)
  rw [unscoped_split, arrBufs_eq, gram_arrays, hrest, hout, hkeep main_v32 (by decide)]
  show iprop(((((c : Thread nD τ).loc main_v32) ↦{fullShare.left} (Gram.dat V c).arrAt 0 cfg1.N)
        ∗ (((c : Thread nD τ).loc main_v32) ↦{fullShare.right} (Gram.dat V c).arrAt 1 cfg1.N)
        ∗ (((c : Thread nD τ).loc main_v33) ↦{fullShare} (Gram.dat V c).arrAt 2 cfg1.N)) ∗ Pipeline.unscopedRest spec1 c (V c))
    ⊢ (iprop(((((c : Thread nD τ).loc main_v32) ↦{fullShare} V c main_v32)
        ∗ (((c : Thread nD τ).loc main_v33) ↦{fullShare} (Gram.dat V c).arrAt 2 cfg1.N)) ∗ Pipeline.unscopedRest spec1 c (V c)) : sProp 𝕄)
  rw [e0, e1]
  iintro ⟨⟨Hl, Hr, H33⟩, Hrest⟩
  isplitr [Hrest]
  · isplitr [H33]
    · iapply (pointsTo_share (PosShare.mem_left_op_right fullShare)).2
      isplitl [Hl]; · iexact Hl
      iexact Hr
    · iexact H33
  · iexact Hrest

end Shared

variable (m : (ℓ : Loc nD τ sig) → Buf (Elt F) ℓ) (ρ : Dev nD → PrngReg)

/-! ## The buffers' contents between the items -/

/-- Core `c`'s buffers at launch, and after the host operations. -/
abbrev W0 : Dev nD → Valuation τ sig (Elt F) := fun c => Gen.V0 m c
abbrev W1 : Dev nD → Valuation τ sig (Elt F) := fun c => Gen.V1 m c
abbrev E1 : (c : Dev nD) → (b : Ref sig .tc) → Buf (Elt F) ((c : Thread nD τ).loc b) := fun c b => W1 m c b

/-- After the first region: its arrays at what the pipeline leaves, every other buffer as entered. -/
def W2 (c : Dev nD) : Valuation τ sig (Elt F) :=
  Pipeline.withArrays spec0 c (W1 m c) fun w => (Lin.dat (E1 m) c).arrAt w cfg0.N
theorem W2_arr (c : Dev nD) (w : Fin cfg0.W) :
    W2 m c (Proc.devRef .tc (Pipeline.arrRef spec0 w)) = (Lin.dat (E1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev E2 : (c : Dev nD) → (b : Ref sig .tc) → Buf (Elt F) ((c : Thread nD τ).loc b) := fun c b => W2 m c b
theorem lin_left (c : Dev nD) (w : Fin cfg0.W) : (Lin.dat (E1 m) c).arrAt w cfg0.N = E2 m c (Pipeline.arrRef spec0 w) :=
  (W2_arr m c w).symm
theorem lin_kept (c : Dev nD) : ∀ b, b ∉ Finset.univ.image (Pipeline.arrRef spec0) → E2 m c b = E1 m c b :=
  fun b hb => W2_of_ne m c b fun w e => hb (Finset.mem_image.mpr ⟨w, Finset.mem_univ _, e⟩)

/-- After the second region: the result array at what the pipeline leaves, every other buffer as entered. -/
def W3 (c : Dev nD) : Valuation τ sig (Elt F) :=
  Function.update (W2 m c) (Proc.devRef .tc main_v33) ((Gram.dat (E2 m) c).arrAt 2 cfg1.N)
theorem W3_out (c : Dev nD) : W3 m c (Proc.devRef .tc main_v33) = (Gram.dat (E2 m) c).arrAt 2 cfg1.N := by
  unfold W3; exact Function.update_self ..
theorem W3_of_ne (c : Dev nD) (b : Ref sig .tc) (hb : b ≠ main_v33) :
    W3 m c (Proc.devRef .tc b) = W2 m c (Proc.devRef .tc b) := by
  unfold W3; exact Function.update_of_ne (StableHlo.devRef_ne_of_ne hb) ..
abbrev E3 : (c : Dev nD) → (b : Ref sig .tc) → Buf (Elt F) ((c : Thread nD τ).loc b) := fun c b => W3 m c b

/-! ## The proof data family and the thread state -/

abbrev adm : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => Lin.dat (E1 m) c
  | ⟨1, _⟩ => fun c => Gram.dat (E2 m) c
abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m c) ∗ ∃ r, prngReg c r)

/-! ## The regions as segments -/

set_option backward.isDefEq.respectTransparency.types false in
/-- The linear layer's region: its four arrays are distinct buffers, split out of the unscoped buffers at entry and put
    back at the exit contents; the generator register passes through the invariant; nothing owed. -/
def regLin : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Lin.body_obligation (E1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (lin_left m c) (lin_kept m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The Gram product's region: the activations' array is dealt in halves to its two readers at entry and joined at the
    exit, the result array ends at what the write-backs leave; the rest as for the first region. -/
def regGram : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (Gram.body_obligation (E2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (E2 m c)
  hentry c := by
    rw [Pipeline.ownSems0_none]
    have hsplit := gram_entry (E2 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := gram_exit (E2 m) c (E3 m c) (W3_out m c) (fun b hb => W3_of_ne m c b hb)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm (pdats m) () defs₀ 𝒱₀ L lv) :=
  [ .host (hseg hostOps0 hostOps0_sub Gen.hostOps0_fresh (W0 m)),
    .region (regLin m),
    .region (regGram m) ]
theorem main_run (c : Dev nD) : main (F := F) c = Pipeline.Seg.run (segs m) := (main_chain c).trans (by chain_rfl)

set_option backward.isDefEq.respectTransparency.types false in
/-- Every weakly fair execution from memory `m` with zero counters terminates, nothing faulting, and every unscoped buffer of
    every core ends at the contents after the second region. -/
theorem run : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun c => by
      show iprop(StableHlo.held (c : Thread nD τ) (Pipeline.ucRefs τ sig) (W3 m c) ∗ R c)
        ⊢ (iprop(Tₙ m c ∗ ∃ W, owes (c : Thread nD τ) (0 : CellTallies nD τ sig Unit) W) : sProp 𝕄)
      iintro ⟨Hh, Hp, HO⟩
      isplitl [Hh Hp]
      · isplitl [Hh]; · iexact Hh
        iexact Hp
      · iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

/-! ## The arguments end as launched -/

/-- No host operation and no region writes an argument: the weights are read by the first region, the others bypass both. -/
theorem W3_arg (c : Dev nD) (b : Ref sig .tc) (h33 : b ≠ main_v33) (hlin : ∀ w, Pipeline.arrRef spec0 w ≠ b)
    (hhost : b ∉ Gen.hostOps0_W) : W3 m c (Proc.devRef .tc b) = m ((c : Thread nD τ).loc b) :=
  (W3_of_ne m c b h33).trans <| (W2_of_ne m c b hlin).trans <| Gen.V1_of m c b hhost

theorem W3_main_arg1 (c : Dev nD) : W3 m c (Proc.devRef .tc main_arg1) = m ((c : Thread nD τ).loc main_arg1) :=
  (W3_of_ne m c main_arg1 (by decide)).trans <| (W2_arr m c 1).trans <|
    (((Lin.dat (E1 m) c).arrAt_in 1 rfl _).trans (Lin.A_eq (E1 m) c 1)).trans <| Gen.V1_of m c main_arg1 (by decide)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (W3_arg m c main_arg0 (by decide) (by decide) (by decide)),
     (h c _ (mem_uc main_arg1 (by decide))).trans (W3_main_arg1 m c),
     (h c _ (mem_uc main_arg2 (by decide))).trans (W3_arg m c main_arg2 (by decide) (by decide) (by decide)),
     (h c _ (mem_uc main_arg3 (by decide))).trans (W3_arg m c main_arg3 (by decide) (by decide) (by decide)),
     (h c _ (mem_uc main_arg4 (by decide))).trans (W3_arg m c main_arg4 (by decide) (by decide) (by decide))⟩) (run m ρ)

end Cert.KernelIdeal.Whole

end
-- ==== Proof.LibMatmul2.lean ====
/-
  A plain matrix product read at an index.

  A `tpu.matmul` with dimension numbers "contract axis 1 of the left operand with axis 0 of the right, no batch axes"
  of an [A, K] and a [K, B] matrix into the zero accumulator is, at the ideal values and at output position (p, q),
  the sum over k < K of left(p, k) · right(k, q): the contraction shape has the one axis of extent K, and the operand
  indices at output (p, q) and contraction position k are (p, k) and (k, q).
-/
import Idealize.ShloMosaic.PureOps.Ideal.Laws
import Idealize.ShloMosaic.Lib.ValueIdx

noncomputable section

namespace Cert.Lib

open Idealize.ShloMosaic Idealize.ShloMosaic.ValueIdx

variable {A K B : ℕ} {φ₁ φ₂ : FTy}

/-- The dimension numbers of a plain matrix product: rows × contraction times contraction × columns. -/
abbrev plain2 (wf : DotDims.WF ⟨2, ![A, K]⟩ ⟨2, ![K, B]⟩ ⟨2, ![A, B]⟩ [1] [0] [0] [1] [] []) :
    DotDims ⟨2, ![A, K]⟩ ⟨2, ![K, B]⟩ ⟨2, ![A, B]⟩ := ⟨[1], [0], [0], [1], [], [], wf⟩

/-- Its contraction shape has one axis, -/
theorem plain2_rank (wf : DotDims.WF ⟨2, ![A, K]⟩ ⟨2, ![K, B]⟩ ⟨2, ![A, B]⟩ [1] [0] [0] [1] [] []) :
    (plain2 wf).contr.rank = 1 := rfl

/-- of extent `K`. -/
theorem plain2_size (wf : DotDims.WF ⟨2, ![A, K]⟩ ⟨2, ![K, B]⟩ ⟨2, ![A, B]⟩ [1] [0] [0] [1] [] []) :
    (plain2 wf).contr.size ⟨0, by rw [plain2_rank]; exact Nat.one_pos⟩ = K := rfl

/-- The product into the zero accumulator at (p, q) is `∑ k, l (p, k) * r (k, q)`. -/
theorem matmul2_zero_apply (wf : DotDims.WF ⟨2, ![A, K]⟩ ⟨2, ![K, B]⟩ ⟨2, ![A, B]⟩ [1] [0] [0] [1] [] [])
    (l : FVec Ideal ⟨2, ![A, K]⟩ φ₁) (r : FVec Ideal ⟨2, ![K, B]⟩ φ₂) (p : Fin A) (q : Fin B) :
    matmul (plain2 wf) none l r (constant ⟨2, ![A, B]⟩ .f32 0x00000000#32) (ix2 p q)
      = ∑ k : Fin K, l (ix2 p k) * r (ix2 k q) := by
  refine (Ideal.matmul_constant_zero_apply (plain2 wf) none l r (ix2 p q)).trans ?_
  refine (Equiv.sum_comp (contrEquiv1 (plain2 wf) K (plain2_rank wf) (plain2_size wf)).symm _).symm.trans ?_
  refine Finset.sum_congr rfl fun k _ => ?_
  have hk := contrEquiv1_symm_val (plain2 wf) K (plain2_rank wf) (plain2_size wf) k
  have hl : (plain2 wf).lhsIdx (ix2 p q) ((contrEquiv1 (plain2 wf) K (plain2_rank wf) (plain2_size wf)).symm k) = ix2 p k := by
    funext a; apply Fin.ext
    match a with
    | ⟨0, _⟩ => simp [DotDims.lhsIdx]; rfl
    | ⟨1, _⟩ => exact (DotDims.lhsIdx_val_of_single (plain2 wf) (cl := 1) rfl (ix2 p q) _).trans hk
  have hr : (plain2 wf).rhsIdx (ix2 p q) ((contrEquiv1 (plain2 wf) K (plain2_rank wf) (plain2_size wf)).symm k) = ix2 k q := by
    funext a; apply Fin.ext
    match a with
    | ⟨0, _⟩ => exact (DotDims.rhsIdx_val_of_single (plain2 wf) (cr := 0) rfl (ix2 p q) _).trans hk
    | ⟨1, _⟩ => simp [DotDims.rhsIdx]; rfl
  show l _ * r _ = _
  rw [hl, hr]

end Cert.Lib

end
-- ==== Proof.LibMatmulRows.lean ====
/-
  A matrix product of the rows of two matrices, read at an index.

  A `tpu.matmul` whose dimension numbers contract axis 1 of the left operand with axis 1 of the right one, with no
  batch axes — an [A, K] matrix against a [B, K] matrix, every row of the first against every row of the second, the
  product a kernel writes as "x · yᵀ" without forming the transpose — into the zero accumulator is, at the ideal values
  and at output position (p, q), the sum over k < K of left(p, k) · right(q, k): the contraction shape has the one axis
  of extent K, and the operand indices at output (p, q) and contraction position k are (p, k) and (q, k).
-/
import Idealize.ShloMosaic.PureOps.Ideal.Laws
import Idealize.ShloMosaic.Lib.ValueIdx

noncomputable section

namespace Cert.Lib

open Idealize.ShloMosaic Idealize.ShloMosaic.ValueIdx

variable {A K B : ℕ} {φ₁ φ₂ : FTy}

/-- The dimension numbers of a product of rows with rows: rows × contraction against rows × contraction. -/
abbrev rows2 (wf : DotDims.WF ⟨2, ![A, K]⟩ ⟨2, ![B, K]⟩ ⟨2, ![A, B]⟩ [1] [1] [0] [0] [] []) :
    DotDims ⟨2, ![A, K]⟩ ⟨2, ![B, K]⟩ ⟨2, ![A, B]⟩ := ⟨[1], [1], [0], [0], [], [], wf⟩

/-- Its contraction shape has one axis, -/
theorem rows2_rank (wf : DotDims.WF ⟨2, ![A, K]⟩ ⟨2, ![B, K]⟩ ⟨2, ![A, B]⟩ [1] [1] [0] [0] [] []) :
    (rows2 wf).contr.rank = 1 := rfl

/-- of extent `K`. -/
theorem rows2_size (wf : DotDims.WF ⟨2, ![A, K]⟩ ⟨2, ![B, K]⟩ ⟨2, ![A, B]⟩ [1] [1] [0] [0] [] []) :
    (rows2 wf).contr.size ⟨0, by rw [rows2_rank]; exact Nat.one_pos⟩ = K := rfl

/-- The product into the zero accumulator at (p, q) is `∑ k, l (p, k) * r (q, k)`. -/
theorem matmulRows_zero_apply (wf : DotDims.WF ⟨2, ![A, K]⟩ ⟨2, ![B, K]⟩ ⟨2, ![A, B]⟩ [1] [1] [0] [0] [] [])
    (l : FVec Ideal ⟨2, ![A, K]⟩ φ₁) (r : FVec Ideal ⟨2, ![B, K]⟩ φ₂) (p : Fin A) (q : Fin B) :
    matmul (rows2 wf) none l r (constant ⟨2, ![A, B]⟩ .f32 0x00000000#32) (ix2 p q)
      = ∑ k : Fin K, l (ix2 p k) * r (ix2 q k) := by
  refine (Ideal.matmul_constant_zero_apply (rows2 wf) none l r (ix2 p q)).trans ?_
  refine (Equiv.sum_comp (contrEquiv1 (rows2 wf) K (rows2_rank wf) (rows2_size wf)).symm _).symm.trans ?_
  refine Finset.sum_congr rfl fun k _ => ?_
  have hk := contrEquiv1_symm_val (rows2 wf) K (rows2_rank wf) (rows2_size wf) k
  have hl : (rows2 wf).lhsIdx (ix2 p q) ((contrEquiv1 (rows2 wf) K (rows2_rank wf) (rows2_size wf)).symm k) = ix2 p k := by
    funext a; apply Fin.ext
    match a with
    | ⟨0, _⟩ => simp [DotDims.lhsIdx]; rfl
    | ⟨1, _⟩ => exact (DotDims.lhsIdx_val_of_single (rows2 wf) (cl := 1) rfl (ix2 p q) _).trans hk
  have hr : (rows2 wf).rhsIdx (ix2 p q) ((contrEquiv1 (rows2 wf) K (rows2_rank wf) (rows2_size wf)).symm k) = ix2 q k := by
    funext a; apply Fin.ext
    match a with
    | ⟨0, _⟩ => simp [DotDims.rhsIdx]; rfl
    | ⟨1, _⟩ => exact (DotDims.rhsIdx_val_of_single (rows2 wf) (cr := 1) rfl (ix2 p q) _).trans hk
  show l _ * r _ = _
  rw [hl, hr]

end Cert.Lib

end
-- ==== Proof.Spec.lean ====
/-
  The two functions the programs compute, index by index, on the extended reals.

  * The activations: from an aggregated feature matrix `a` (12288 × 64), a weight matrix `w` (64 × 64) and a bias
    `b` (one value per column), entry (r, q) is max(Σ_k a(r, k) · w(k, q) + b(q), 0).
  * The Gram matrix of the activations `x`: entry (i, j) is Σ_k x(i, k) · x(j, k), the inner product of rows i and j.
  Nothing here mentions a program; sums over k are over the 64 features.
-/
import Idealize.ShloMosaic.PureOps.Ideal
import Idealize.ShloMosaic.Lib.ValueIdx

noncomputable section

namespace Cert.Spec

open Idealize.ShloMosaic Idealize.ShloMosaic.ValueIdx

/-- One activation: the affine form of row `r` at column `q`, clamped below at the zero word's value. -/
def actAt {R : ℕ} (a : (⟨2, ![R, 64]⟩ : Shape).Idx → EReal) (w : (⟨2, ![64, 64]⟩ : Shape).Idx → EReal) (b : Fin 64 → EReal)
    (r : Fin R) (q : Fin 64) : EReal :=
  max ((∑ k : Fin 64, a (ix2 r k) * w (ix2 k q)) + b q) (Ideal.ofBits .f32 0x00000000#32)

/-- The activations of every row. -/
def act {R : ℕ} (a : (⟨2, ![R, 64]⟩ : Shape).Idx → EReal) (w : (⟨2, ![64, 64]⟩ : Shape).Idx → EReal) (b : Fin 64 → EReal) :
    (⟨2, ![R, 64]⟩ : Shape).Idx → EReal := fun i => actAt a w b (i 0) (i 1)

/-- One inner product of a row of `x` with a row of `y`. -/
def innerAt {R S : ℕ} (x : (⟨2, ![R, 64]⟩ : Shape).Idx → EReal) (y : (⟨2, ![S, 64]⟩ : Shape).Idx → EReal) (i : Fin R) (j : Fin S) : EReal :=
  ∑ k : Fin 64, x (ix2 i k) * y (ix2 j k)

/-- The Gram matrix of `x`: all inner products of its rows. -/
def gram {R : ℕ} (x : (⟨2, ![R, 64]⟩ : Shape).Idx → EReal) : (⟨2, ![R, R]⟩ : Shape).Idx → EReal :=
  fun i => innerAt x x (i 0) (i 1)

end Cert.Spec

end
-- ==== Proof.Payloads.lean ====
/-
  What each kernel body stores, read at an index, on the extended reals.

  The linear layer's body stores, at (p, q) of its block, max(Σ_k rows(p, k) · W(k, q) + bias(0, q), 0): the rounding
  to a narrower float format on the way into and out of the product is the identity on exact values, and the bias row is
  repeated down the block. The Gram body stores at (p, q) the inner product of row p of its first block with row q of
  its second: the product contracts the feature axis of both operands.
-/
import proofs.«144663_j39032662786657_2_alg».proof.Proof.Gen.KernelIdeal.Skeleton
import proofs.«144663_j39032662786657_2_alg».proof.Proof.LibMatmul2
import proofs.«144663_j39032662786657_2_alg».proof.Proof.LibMatmulRows
import proofs.«144663_j39032662786657_2_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Pay

open Idealize.ShloMosaic Idealize.ShloMosaic.ValueIdx Cert.KernelIdeal Cert.KernelIdeal.Gen Cert.Spec

/-- The linear layer's stored block at (p, q) is the activation of row p of the block of rows at column q. -/
theorem lin_at (x0 : Vec Ideal S3072x64 .f32) (x1 : Vec Ideal S64x64 .f32) (x2 : Vec Ideal S1x64 .f32) (p : Fin 3072) (q : Fin 64) :
    k0_pay1 x0 x1 x2 (ix2 p q) = actAt x0 x1 (fun q => x2 (ix2 (0 : Fin 1) q)) p q := by
  unfold k0_pay1 actAt
  simp only [truncf_apply, maximumf_apply, addf_apply, broadcast_apply, shapeCast_self]
  refine congrArg₂ max (congrArg₂ (· + ·) ((Cert.Lib.matmul2_zero_apply _ _ _ p q).trans ?_) (broadcastTo_1b_ab_apply _ _ p q)) rfl
  rfl

/-- The Gram body's stored block at (p, q) is the inner product of row p of the first block and row q of the second. -/
theorem gram_at (x0 x1 : Vec Ideal S2048x64 .bf16) (p q : Fin 2048) :
    k1_pay1 x0 x1 (ix2 p q) = innerAt x0 x1 p q := by
  unfold k1_pay1 innerAt
  simp only [shapeCast_self]
  exact Cert.Lib.matmulRows_zero_apply _ _ _ p q

end Cert.KernelIdeal.Pay

end
-- ==== Proof.Arrays.lean ====
/-
  From blocks to arrays: what each region's output array holds once every grid point has written its block back.

  The linear layer's point t writes rows 3072·t … 3072·t + 3071 of the activations; it read the same rows of the
  aggregated features, all of the weights and the bias row, so its block is the block of ONE whole-array function, the
  activations of the region's entry arrays. Four such blocks cover the 12288 rows. The Gram product's point (i, j) writes
  the 2048 × 2048 block at block position (i, j); it read row block i and row block j of the activations, so again its
  block is the block of one function, the Gram matrix. The 36 blocks cover the 12288 × 12288 result.
-/
import proofs.«144663_j39032662786657_2_alg».proof.Proof.WholeIdeal
import proofs.«144663_j39032662786657_2_alg».proof.Proof.Payloads
import Idealize.ShloMosaic.Lib.Pipeline.Value

set_option maxRecDepth 16384

noncomputable section

namespace Cert.KernelIdeal.Arrays

open Idealize.ShloMosaic Idealize.ShloMosaic.TcCoe Idealize.ShloMosaic.ValueIdx
open Idealize.SL.Sem
open Idealize.ShloMosaic.Pipeline (Dat)
open Cert.KernelIdeal Cert.KernelIdeal.Gen Cert.Spec

variable (V : (c : Dev nD) → (b : Ref sig .tc) → Buf (Elt Ideal) ((c : Thread nD τ).loc b))

theorem hz : (![0, 0] : Fin 2 → Nat) = fun _ => 0 := funext fun a => by fin_cases a <;> rfl

/-! ## The linear layer -/

/-- The activations of the arrays the first region finds. -/
def actOf (c : Dev nD) : S12288x64.Idx → EReal :=
  act (R := 12288) (V c main_v30 : S12288x64.Idx → EReal) (V c main_arg1 : S64x64.Idx → EReal)
    (fun q => (V c main_v31 : S1x64.Idx → EReal) (ix2 (0 : Fin 1) q))

/-- The block indices over the grid: the rows' window moves with the output's, the weights and the bias stay put, and
    the output's row block at point t is t. -/
theorem lin_idx : ∀ t : Fin cfg0.N, win0_0.index t (0 : Fin 2) = win0_3.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What point `t` writes back is block `t` of the activations. -/
theorem lin_flushed (c : Dev nD) (t : Fin cfg0.N) :
    (Lin.dat V c).flushed 3 t = ((cfg0.win 3).blk t).view.read (Elt Ideal) (actOf V c) := by
  show (cfg0.win 3).cut (grid0.coords t) ((Lin.dat V c).after 3 t) = _
  rw [Lin.after_3]
  unfold Lin.stored
  rw [View.canon_unit_zero hz]
  simp only [View.ld_unit_zero (S := S3072x64) hz, View.ld_unit_zero (S := S64x64) hz, View.ld_unit_zero (S := S1x64) hz]
  obtain ⟨e0, e1, e2, e3, e4, e5, e6, e7⟩ := lin_idx t
  funext j
  obtain ⟨p, q, rfl⟩ : ∃ (p : Fin 3072) (q : Fin 64), j = ix2 p q := ⟨j 0, j 1, eq_ix2 j⟩
  show k0_pay1 (Lin.blk V c 0 t) (Lin.blk V c 1 t) (Lin.blk V c 2 t) (ix2 p q) = actOf V c (((cfg0.win 3).blk t).view.emb (ix2 p q))
  refine (Pay.lin_at _ _ _ p q).trans ?_
  unfold actOf act actAt
  refine congrArg₂ max (congrArg₂ (· + ·) (Finset.sum_congr rfl fun k _ => congrArg₂ (· * ·) ?_ ?_) ?_) rfl
  · show V c main_v30 (((cfg0.win 0).blk t).view.emb (ix2 p k)) = V c main_v30 _
    refine congrArg (V c main_v30) (funext fun a => Fin.ext ?_)
    match a with
    | ⟨0, _⟩ => show win0_0.index t (0 : Fin 2) * 3072 + 1 * p.val = win0_3.index t (0 : Fin 2) * 3072 + 1 * p.val; omega
    | ⟨1, _⟩ => show win0_0.index t (1 : Fin 2) * 64 + 1 * k.val = k.val; omega
  · show V c main_arg1 (((cfg0.win 1).blk t).view.emb (ix2 k q)) = V c main_arg1 _
    refine congrArg (V c main_arg1) (funext fun a => Fin.ext ?_)
    match a with
    | ⟨0, _⟩ => show win0_1.index t (0 : Fin 2) * 64 + 1 * k.val = k.val; omega
    | ⟨1, _⟩ => show win0_1.index t (1 : Fin 2) * 64 + 1 * q.val = win0_3.index t (1 : Fin 2) * 64 + 1 * q.val; omega
  · show V c main_v31 (((cfg0.win 2).blk t).view.emb (ix2 (0 : Fin 1) q)) = V c main_v31 _
    refine congrArg (V c main_v31) (funext fun a => Fin.ext ?_)
    match a with
    | ⟨0, _⟩ => show win0_2.index t (0 : Fin 2) * 1 + 1 * 0 = 0; omega
    | ⟨1, _⟩ => show win0_2.index t (1 : Fin 2) * 64 + 1 * q.val = win0_3.index t (1 : Fin 2) * 64 + 1 * q.val; omega

/-- An index of the activations' array is in point `t`'s block iff each coordinate is in the block's range. -/
theorem lin_mem (t : Fin cfg0.N) (i : S12288x64.Idx) :
    i ∈ ((cfg0.win 3).blk t).view.set ↔ ∀ a : Fin 2, win0_3.index t a * S3072x64.size a ≤ (i a).val ∧ (i a).val < win0_3.index t a * S3072x64.size a + S3072x64.size a := by
  show i ∈ ((View.whole main_v32).slice (win0_3.rect t)).set ↔ _
  rw [View.set_slice_whole, Rect.mem_set_unit]
  exact Iff.rfl

/-- Row r lies in the block of point r / 3072. -/
theorem lin_cover (i : S12288x64.Idx) : ∃ t : Fin cfg0.N, (cfg0.win 3).flush t = true ∧ i ∈ ((cfg0.win 3).blk t).view.set := by
  have hi0 : (i 0).val < 12288 := (i 0).isLt
  have hi1 : (i 1).val < 64 := (i 1).isLt
  have hN : (i 0).val / 3072 < cfg0.N := by show _ < grid0.N; rw [N_0]; omega
  obtain ⟨e0, e1, e2, e3, e4, e5, e6, e7⟩ := lin_idx ⟨(i 0).val / 3072, hN⟩
  have e6' : win0_3.index ⟨(i 0).val / 3072, hN⟩ (0 : Fin 2) = (i 0).val / 3072 := e6
  refine ⟨⟨(i 0).val / 3072, hN⟩, flush0_3 _, ?_⟩
  rw [lin_mem]
  intro a
  match a with
  | ⟨0, _⟩ => show win0_3.index ⟨(i 0).val / 3072, hN⟩ (0 : Fin 2) * 3072 ≤ (i 0).val ∧ (i 0).val < win0_3.index ⟨(i 0).val / 3072, hN⟩ (0 : Fin 2) * 3072 + 3072; omega
  | ⟨1, _⟩ => show win0_3.index ⟨(i 0).val / 3072, hN⟩ (1 : Fin 2) * 64 ≤ (i 1).val ∧ (i 1).val < win0_3.index ⟨(i 0).val / 3072, hN⟩ (1 : Fin 2) * 64 + 64; omega

/-- After the first region the activations' array holds the activations of the entry arrays. -/
theorem lin_final (c : Dev nD) : (Lin.dat V c).arrAt 3 cfg0.N = actOf V c :=
  (Lin.dat V c).arrAt_eq_of_cover 3 (actOf V c) (fun t _ => lin_flushed V c t) lin_cover

/-! ## The Gram product -/

/-- The Gram matrix of the activations the second region finds. -/
def gramOf (c : Dev nD) : S12288x12288.Idx → EReal :=
  gram (R := 12288) (V c main_v32 : S12288x64.Idx → EReal)

/-- The block indices over the grid: the first window's row block is the output's row block, the second's is the output's
    column block, and both stay in 0 … 5. -/
theorem gram_idx : ∀ t : Fin cfg1.N, win1_0.index t (0 : Fin 2) = win1_2.index t (0 : Fin 2) ∧ win1_0.index t (1 : Fin 2) = 0
    ∧ win1_1.index t (0 : Fin 2) = win1_2.index t (1 : Fin 2) ∧ win1_1.index t (1 : Fin 2) = 0
    ∧ win1_2.index t (0 : Fin 2) ≤ 5 ∧ win1_2.index t (1 : Fin 2) ≤ 5 :=
  (by decide +kernel : ∀ t : Fin grid1.N, _)

/-- Every block position of the result is some point's. -/
theorem gram_onto : ∀ (q0 q1 : Fin 6), ∃ t : Fin cfg1.N, win1_2.index t = ![q0.val, q1.val] :=
  (by decide +kernel : ∀ (q0 q1 : Fin 6), ∃ t : Fin grid1.N, win1_2.index t = ![q0.val, q1.val])

/-- What point `t` writes back is block `t` of the Gram matrix. -/
theorem gram_flushed (c : Dev nD) (t : Fin cfg1.N) :
    (Gram.dat V c).flushed 2 t = ((cfg1.win 2).blk t).view.read (Elt Ideal) (gramOf V c) := by
  show (cfg1.win 2).cut (grid1.coords t) ((Gram.dat V c).after 2 t) = _
  rw [Gram.after_2]
  unfold Gram.stored
  rw [View.canon_unit_zero hz]
  simp only [View.ld_unit_zero (S := S2048x64) hz]
  obtain ⟨e0, e1, e2, e3, e4, e5⟩ := gram_idx t
  funext j
  obtain ⟨p, q, rfl⟩ : ∃ (p : Fin 2048) (q : Fin 2048), j = ix2 p q := ⟨j 0, j 1, eq_ix2 j⟩
  show k1_pay1 (Gram.blk V c 0 t) (Gram.blk V c 1 t) (ix2 p q) = gramOf V c (((cfg1.win 2).blk t).view.emb (ix2 p q))
  refine (Pay.gram_at _ _ p q).trans ?_
  unfold gramOf gram innerAt
  refine Finset.sum_congr rfl fun k _ => congrArg₂ (· * ·) ?_ ?_
  · show V c main_v32 (((cfg1.win 0).blk t).view.emb (ix2 p k)) = V c main_v32 _
    refine congrArg (V c main_v32) (funext fun a => Fin.ext ?_)
    match a with
    | ⟨0, _⟩ => show win1_0.index t (0 : Fin 2) * 2048 + 1 * p.val = win1_2.index t (0 : Fin 2) * 2048 + 1 * p.val; omega
    | ⟨1, _⟩ => show win1_0.index t (1 : Fin 2) * 64 + 1 * k.val = k.val; omega
  · show V c main_v32 (((cfg1.win 1).blk t).view.emb (ix2 q k)) = V c main_v32 _
    refine congrArg (V c main_v32) (funext fun a => Fin.ext ?_)
    match a with
    | ⟨0, _⟩ => show win1_1.index t (0 : Fin 2) * 2048 + 1 * q.val = win1_2.index t (1 : Fin 2) * 2048 + 1 * q.val; omega
    | ⟨1, _⟩ => show win1_1.index t (1 : Fin 2) * 64 + 1 * k.val = k.val; omega

/-- An index of the result array is in point `t`'s block iff each coordinate is in the block's range. -/
theorem gram_mem (t : Fin cfg1.N) (i : S12288x12288.Idx) :
    i ∈ ((cfg1.win 2).blk t).view.set ↔ ∀ a : Fin 2, win1_2.index t a * S2048x2048.size a ≤ (i a).val ∧ (i a).val < win1_2.index t a * S2048x2048.size a + S2048x2048.size a := by
  show i ∈ ((View.whole main_v33).slice (win1_2.rect t)).set ↔ _
  rw [View.set_slice_whole, Rect.mem_set_unit]
  exact Iff.rfl

/-- Entry (r, s) lies in the block at block position (r / 2048, s / 2048). -/
theorem gram_cover (i : S12288x12288.Idx) : ∃ t : Fin cfg1.N, (cfg1.win 2).flush t = true ∧ i ∈ ((cfg1.win 2).blk t).view.set := by
  have hi0 : (i 0).val < 12288 := (i 0).isLt
  have hi1 : (i 1).val < 12288 := (i 1).isLt
  obtain ⟨t, ht⟩ := gram_onto ⟨(i 0).val / 2048, by omega⟩ ⟨(i 1).val / 2048, by omega⟩
  have q0 : win1_2.index t (0 : Fin 2) = (i 0).val / 2048 := congrFun ht 0
  have q1 : win1_2.index t (1 : Fin 2) = (i 1).val / 2048 := congrFun ht 1
  refine ⟨t, flush1_2 t, ?_⟩
  rw [gram_mem]
  intro a
  match a with
  | ⟨0, _⟩ => show win1_2.index t (0 : Fin 2) * 2048 ≤ (i 0).val ∧ (i 0).val < win1_2.index t (0 : Fin 2) * 2048 + 2048; omega
  | ⟨1, _⟩ => show win1_2.index t (1 : Fin 2) * 2048 ≤ (i 1).val ∧ (i 1).val < win1_2.index t (1 : Fin 2) * 2048 + 2048; omega

/-- After the second region the result array holds the Gram matrix of the activations it found. -/
theorem gram_final (c : Dev nD) : (Gram.dat V c).arrAt 2 cfg1.N = gramOf V c :=
  (Gram.dat V c).arrAt_eq_of_cover 2 (gramOf V c) (fun t _ => gram_flushed V c t) gram_cover

end Cert.KernelIdeal.Arrays

end
-- ==== Proof.RefSide.lean ====
/-
  The reference, read against the two spec functions.

  Its activations: the host's matrix product of the aggregated features with the weights is the sum over the 64
  features, the bias is broadcast from a vector to a row to every row, and relu is the maximum with the zero constant:
  entry (r, q) is `Spec.actAt`. Its result: the product of the activations with their transpose contracts the feature
  axis, and the transpose at (k, s) is the activations at (s, k): entry (r, s) is the inner product of rows r and s.
  The aggregated features themselves are the reference's own term for its first forty-odd operations and stay unopened.
-/
import proofs.«144663_j39032662786657_2_alg».proof.Defs
import proofs.«144663_j39032662786657_2_alg».proof.Proof.Gen.ReferenceIdeal.Read
import proofs.«144663_j39032662786657_2_alg».proof.Proof.Spec
import Idealize.ShloMosaic.Lib.ValueIdx
import Idealize.ShloMosaic.PureOps.Ideal.Laws

noncomputable section

namespace Cert.ReferenceIdeal.RefSide

open Idealize.ShloMosaic Idealize.ShloMosaic.ValueIdx Cert.ReferenceIdeal Cert.ReferenceIdeal.Read Cert.Spec

variable (x0 : (⟨S12288x64, .f32⟩ : BufTy).Contents (Elt Ideal)) (x1 : (⟨S64x64, .f32⟩ : BufTy).Contents (Elt Ideal))
  (x2 : (⟨S64, .f32⟩ : BufTy).Contents (Elt Ideal)) (x3 x4 : (⟨S196608, .i32⟩ : BufTy).Contents (Elt Ideal))

/-- The reference's activations are the spec's, of its aggregated features, the weights and the bias vector. -/
theorem ref_act :
    val_main_v35 (F := Ideal) x0 x1 x2 x3 x4
      = act (R := 12288) (val_main_v30 (F := Ideal) x0 x3 x4) x1 (fun q => x2 (ix1 q)) := by
  funext i
  obtain ⟨r, q, rfl⟩ : ∃ (r : Fin 12288) (q : Fin 64), i = ix2 r q := ⟨i 0, i 1, eq_ix2 i⟩
  rw [val_main_v35_apply, val_main_v34_apply, val_main_v31_apply, val_main_v33_apply, val_main_v32_apply,
    val_main_call0_v0_apply, val_main_call0_cst_apply]
  have hl : ∀ k : Fin 64, lidx_main_v31 (ix2 r q) k = ix2 r k := fun k => funext fun a => Fin.ext (by
    match a with | ⟨0, _⟩ => rfl | ⟨1, _⟩ => rfl)
  have hr : ∀ k : Fin 64, ridx_main_v31 (ix2 r q) k = ix2 k q := fun k => funext fun a => Fin.ext (by
    match a with | ⟨0, _⟩ => rfl | ⟨1, _⟩ => rfl)
  have hb : idx_main_v32 (idx_main_v33 (ix2 r q)) = ix1 q := funext fun a => Fin.ext (by
    match a with | ⟨0, _⟩ => rfl)
  simp only [hl, hr, hb]
  rfl

/-- The reference's result is the Gram matrix of its activations. -/
theorem ref_gram :
    val_main_v37 (F := Ideal) x0 x1 x2 x3 x4 = gram (R := 12288) (val_main_v35 (F := Ideal) x0 x1 x2 x3 x4) := by
  funext i
  obtain ⟨r, s, rfl⟩ : ∃ (r : Fin 12288) (s : Fin 12288), i = ix2 r s := ⟨i 0, i 1, eq_ix2 i⟩
  rw [val_main_v37_apply]
  unfold gram innerAt
  refine Finset.sum_congr rfl fun k _ => ?_
  rw [val_main_v36_apply]
  have hl : lidx_main_v37 (ix2 r s) k = ix2 r k := funext fun a => Fin.ext (by
    match a with | ⟨0, _⟩ => rfl | ⟨1, _⟩ => rfl)
  have hr : idx_main_v36 (ridx_main_v37 (ix2 r s) k) = ix2 s k := funext fun a => Fin.ext (by
    match a with | ⟨0, _⟩ => rfl | ⟨1, _⟩ => rfl)
  rw [hl, hr]

end Cert.ReferenceIdeal.RefSide

end
-- ==== Proof.Bridge.lean ====
/-
  The kernel's result is the reference's result, as one function of the arguments.

  Up to the aggregated features the two programs run the same host operations on the same arguments, so the array the
  first region reads IS the reference's term for them. The first region then leaves the activations of (aggregated
  features, weights, bias) — the bias reaches it as a vector recast to a row —, the second region leaves their Gram
  matrix; the reference's activations and result are the same two functions. Both sums run over the same products in the
  same order, so nothing is needed of the arguments beyond their being extended reals.
-/
import proofs.«144663_j39032662786657_2_alg».proof.Proof.Arrays
import proofs.«144663_j39032662786657_2_alg».proof.Proof.RefSide
import Idealize.ShloMosaic.Lib.ValueLayout
import Idealize.ShloMosaic.Lib.StableHlo.Run

set_option maxRecDepth 16384

noncomputable section

namespace Cert.KernelIdeal.Bridge

open Idealize.ShloMosaic Idealize.ShloMosaic.TcCoe Idealize.ShloMosaic.ValueIdx
open Idealize.SL.Sem
open Cert.KernelIdeal Cert.KernelIdeal.Gen Cert.Spec

variable (m : (ℓ : Loc nD τ sig) → Buf (Elt Ideal) ℓ)

/-- The aggregated features the first region reads are the reference's term of the same arguments: the two programs
    apply the same host operations, one after the other, to the features and the two index vectors. -/
theorem host_agg (c : Dev nD) :
    Whole.E1 m c main_v30 = Cert.ReferenceIdeal.Read.val_main_v30 (F := Ideal) (m ((c : Thread nD τ).loc main_arg0))
      (m ((c : Thread nD τ).loc main_arg3)) (m ((c : Thread nD τ).loc main_arg4)) := by
  show StableHlo.after (hostOps0 (F := Ideal)) (Gen.V0 m c) (Proc.devRef .tc main_v30) = _
  after_results_simp
  rfl

/-- The weights reach the first region as launched. -/
theorem host_w (c : Dev nD) : Whole.E1 m c main_arg1 = m ((c : Thread nD τ).loc main_arg1) :=
  Gen.V1_of m c main_arg1 (by decide)

/-- The bias row the first region reads holds, at column q, the bias vector at q. -/
theorem host_bias (c : Dev nD) (q : Fin 64) :
    (Whole.E1 m c main_v31 : S1x64.Idx → EReal) (ix2 (0 : Fin 1) q) = (m ((c : Thread nD τ).loc main_arg2) : S64.Idx → EReal) (ix1 q) := by
  have e : Whole.E1 m c main_v31 = fun i => shapeCast S1x64 (m ((c : Thread nD τ).loc main_arg2) : S64.Idx → EReal) Facts₀.shapeCasts_S64_S1x64 i := by
    show StableHlo.after (hostOps0 (F := Ideal)) (Gen.V0 m c) (Proc.devRef .tc main_v31) = _
    after_results_simp
    rfl
  rw [e]
  exact shapeCast_a_1a_apply _ _ 0 q

/-- After the first region the activations' array holds the spec's activations of the reference's aggregated features,
    the weights and the bias vector. -/
theorem kernel_act (c : Dev nD) :
    (Whole.E2 m c main_v32 : S12288x64.Idx → EReal)
      = act (R := 12288) (Cert.ReferenceIdeal.Read.val_main_v30 (F := Ideal) (m ((c : Thread nD τ).loc main_arg0))
          (m ((c : Thread nD τ).loc main_arg3)) (m ((c : Thread nD τ).loc main_arg4)))
        (m ((c : Thread nD τ).loc main_arg1)) (fun q => (m ((c : Thread nD τ).loc main_arg2) : S64.Idx → EReal) (ix1 q)) := by
  refine ((Whole.W2_arr m c 3).trans (Arrays.lin_final (Whole.E1 m) c)).trans ?_
  unfold Arrays.actOf
  rw [host_agg, host_w]
  exact congrArg (act (R := 12288) _ _) (funext fun q => host_bias m c q)

/-- The result array ends holding the reference's result term of the same arguments. -/
theorem kernel_result (c : Dev nD) :
    Whole.W3 m c (Proc.devRef .tc main_v33)
      = Cert.ReferenceIdeal.Read.val_main_v37 (F := Ideal) (m ((c : Thread nD τ).loc main_arg0)) (m ((c : Thread nD τ).loc main_arg1))
          (m ((c : Thread nD τ).loc main_arg2)) (m ((c : Thread nD τ).loc main_arg3)) (m ((c : Thread nD τ).loc main_arg4)) := by
  refine ((Whole.W3_out m c).trans (Arrays.gram_final (Whole.E2 m) c)).trans ?_
  unfold Arrays.gramOf
  rw [kernel_act, Cert.ReferenceIdeal.RefSide.ref_gram, Cert.ReferenceIdeal.RefSide.ref_act]

/-- The kernel's run with its result named: the result array at the reference's term, every argument as launched. -/
theorem run (ρ : Dev nD → PrngReg) :
    θ_run (defs (F := Ideal)) (onTc (τ := τ) (main (F := Ideal))) ⟨m, fun _ => 0, ρ⟩ (fun r => ∀ c : Dev nD,
      r.2.mem ((c.tc : Thread nD τ).loc main_v33) = Whole.W3 m c (Proc.devRef .tc main_v33)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨h c _ (Whole.mem_uc main_v33 (by decide)),
     (h c _ (Whole.mem_uc main_arg0 (by decide))).trans (Whole.W3_arg m c main_arg0 (by decide) (by decide) (by decide)),
     (h c _ (Whole.mem_uc main_arg1 (by decide))).trans (Whole.W3_main_arg1 m c),
     (h c _ (Whole.mem_uc main_arg2 (by decide))).trans (Whole.W3_arg m c main_arg2 (by decide) (by decide) (by decide)),
     (h c _ (Whole.mem_uc main_arg3 (by decide))).trans (Whole.W3_arg m c main_arg3 (by decide) (by decide) (by decide)),
     (h c _ (Whole.mem_uc main_arg4 (by decide))).trans (Whole.W3_arg m c main_arg4 (by decide) (by decide) (by decide))⟩) (Whole.run m ρ)

end Cert.KernelIdeal.Bridge

end
-- ==== Proof.lean ====
/-
  The five claims.

  Frames: each kernel program runs as host operations followed by its two pipelined regions, and every unscoped buffer
  ends at contents that are the launch memory at each argument (no host operation and no write-back touches one); the
  reference is a straight line of host operations. The idealization rewrote nothing, so `preserves` has no conjunct.
  Algebraic: from memories agreeing on the arguments the kernel's result array ends at the reference's own result term of
  those arguments — aggregated features by the same host operations, activations max(a·W + b, 0), then all inner products
  of the activations' rows — and the reference's run ends at that term too.
-/
import proofs.«144663_j39032662786657_2_alg».proof.Defs
import proofs.«144663_j39032662786657_2_alg».proof.Proof.Gen.Kernel
import proofs.«144663_j39032662786657_2_alg».proof.Proof.Gen.KernelIdeal
import proofs.«144663_j39032662786657_2_alg».proof.Proof.Gen.ReferenceIdeal
import proofs.«144663_j39032662786657_2_alg».proof.Proof.Gen.Pre_finite_inputs
import proofs.«144663_j39032662786657_2_alg».proof.Proof.WholeBits
import proofs.«144663_j39032662786657_2_alg».proof.Proof.Bridge
import Idealize.ShloMosaic.Adequacy
import Idealize.ShloMosaic.Init

noncomputable section

namespace Cert.Proof

open Idealize.ShloMosaic Idealize.SL.Sem

theorem frame_kernel : Cert.frame_Kernel (hKernel := Cert.Kernel.Gen.facts) (hPre_finite_inputs := Cert.Pre_finite_inputs.Gen.facts) :=
  fun m ρ _ => Cert.Kernel.Whole.frame m ρ

theorem frame_kernelIdeal : Cert.frame_KernelIdeal (hKernelIdeal := Cert.KernelIdeal.Gen.facts) (hPre_finite_inputs := Cert.Pre_finite_inputs.Gen.facts) :=
  fun m ρ _ => Cert.KernelIdeal.Whole.frame m ρ

theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both runs end with the result at the reference's term of the (agreeing) arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Whole.W3 m c (Proc.devRef .tc Cert.KernelIdeal.main_v33), Cert.KernelIdeal.Bridge.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v37_eq, (hagree c).1, (hagree c).2.1, (hagree c).2.2.1, (hagree c).2.2.2.1, (hagree c).2.2.2.2]
  exact (Cert.KernelIdeal.Bridge.kernel_result m c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
